-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v50)) (v2 : (c : Dev Cert.KernelIdeal.nD) → Buf (Elt Ideal) ((c.tc : Thread Cert.KernelIdeal.nD Cert.KernelIdeal.τ).loc Cert.KernelIdeal.main_v45)) (v3 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v50) = v1 c
          ∧ r.2.mem ((c.tc : Thread Cert.KernelIdeal.nD Cert.KernelIdeal.τ).loc Cert.KernelIdeal.main_v45) = v2 c
          ∧ r.2.mem ((c.tc : Thread Cert.KernelIdeal.nD Cert.KernelIdeal.τ).loc Cert.KernelIdeal.main_v53) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_v167) = v2 c
          ∧ r.2.mem ((c.tc : Thread Cert.ReferenceIdeal.nD Cert.ReferenceIdeal.τ).loc Cert.ReferenceIdeal.main_v164) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000 : Shape := ⟨1, ![4000000]⟩
abbrev S4000000x3 : Shape := ⟨2, ![4000000, 3]⟩
abbrev S200000 : Shape := ⟨1, ![200000]⟩
abbrev S_ : Shape := ⟨0, ![]⟩

class Facts : Prop where
  bcast_S_S4000000x3 : S_.BroadcastsInDim S4000000x3 (![] : Fin 0 → Fin S4000000x3.rank)
  reducesTo_S4000000x3_S_d0_1 : S4000000x3.ReducesTo [0, 1] S_
  h_S_ : 0 < S_.numel
  bcast_S_S200000 : S_.BroadcastsInDim S200000 (![] : Fin 0 → Fin S200000.rank)
  reducesTo_S200000_S_d0 : S200000.ReducesTo [0] S_

variable [Facts]

def fn_part1 {F : FTy → Type} [FloatOps F] (main_v13 : IVec S_ 1) (main_v16 : IVec S200000 1) : IVec S_ 1 :=
  let main_c_5 : IVec S_ 1 := constantI S_ 1 1#1
  let main_v17 : IVec S_ 1 := (fun x v => Host.reduce IntOp.andi x v reducesTo_S200000_S_d0 h_S_) main_v16 main_c_5
  let main_v18 : IVec S_ 1 := andi main_v13 main_v17
  main_v18

def fn {F : FTy → Type} [FloatOps F] (main_arg0 : IVec S4000000 32) (main_arg1 : IVec S4000000 32) (main_arg2 : FVec F S4000000x3 .f32) (main_arg3 : FVec F S200000 .f32) (main_arg4 : FVec F S200000 .f32) (main_arg5 : FVec F S200000 .f32) : IVec S_ 1 :=
  let main_v0 : FVec F S4000000x3 .f32 := Host.absf main_arg2
  let main_cst : FVec F S_ .f32 := constant S_ .f32 0x7F800000#32
  let main_v1 : FVec F S4000000x3 .f32 := broadcastInDim S4000000x3 ![] bcast_S_S4000000x3 main_cst
  let main_v2 : IVec S4000000x3 1 := cmpf .olt main_v0 main_v1
  let main_c : IVec S_ 1 := constantI S_ 1 1#1
  let main_v3 : IVec S_ 1 := (fun x v => Host.reduce IntOp.andi x v reducesTo_S4000000x3_S_d0_1 h_S_) main_v2 main_c
  let main_v4 : FVec F S200000 .f32 := Host.absf main_arg3
  let main_cst_0 : FVec F S_ .f32 := constant S_ .f32 0x7F800000#32
  let main_v5 : FVec F S200000 .f32 := broadcastInDim S200000 ![] bcast_S_S200000 main_cst_0
  let main_v6 : IVec S200000 1 := cmpf .olt main_v4 main_v5
  let main_c_1 : IVec S_ 1 := constantI S_ 1 1#1
  let main_v7 : IVec S_ 1 := (fun x v => Host.reduce IntOp.andi x v reducesTo_S200000_S_d0 h_S_) main_v6 main_c_1
  let main_v8 : IVec S_ 1 := andi main_v3 main_v7
  let main_v9 : FVec F S200000 .f32 := Host.absf main_arg4
  let main_cst_2 : FVec F S_ .f32 := constant S_ .f32 0x7F800000#32
  let main_v10 : FVec F S200000 .f32 := broadcastInDim S200000 ![] bcast_S_S200000 main_cst_2
  let main_v11 : IVec S200000 1 := cmpf .olt main_v9 main_v10
  let main_c_3 : IVec S_ 1 := constantI S_ 1 1#1
  let main_v12 : IVec S_ 1 := (fun x v => Host.reduce IntOp.andi x v reducesTo_S200000_S_d0 h_S_) main_v11 main_c_3
  let main_v13 : IVec S_ 1 := andi main_v8 main_v12
  let main_v14 : FVec F S200000 .f32 := Host.absf main_arg5
  let main_cst_4 : FVec F S_ .f32 := constant S_ .f32 0x7F800000#32
  let main_v15 : FVec F S200000 .f32 := broadcastInDim S200000 ![] bcast_S_S200000 main_cst_4
  let main_v16 : IVec S200000 1 := cmpf .olt main_v14 main_v15
  fn_part1 (F := F) main_v13 main_v16
-- ==== Kernel.lean ====
abbrev S4000000 : Shape := ⟨1, ![4000000]⟩
abbrev S4000000x3 : Shape := ⟨2, ![4000000, 3]⟩
abbrev S200000 : Shape := ⟨1, ![200000]⟩
abbrev S_ : Shape := ⟨0, ![]⟩
abbrev S200000x1 : Shape := ⟨2, ![200000, 1]⟩
abbrev S200000x3 : Shape := ⟨2, ![200000, 3]⟩
abbrev S4000000x1 : Shape := ⟨2, ![4000000, 1]⟩
abbrev S4063232 : Shape := ⟨1, ![4063232]⟩
abbrev S131072 : Shape := ⟨1, ![131072]⟩

abbrev nBuf : Space → Nat
  | .hbm => 77
  | .vmem => 16
  | .smem => 0
  | _ => 0

abbrev bufTy : (tb : Table) → Fin (tcTables nBuf tb) → BufTy
  | .hbm, ⟨0, _⟩ => ⟨S4000000, .i32⟩
  | .hbm, ⟨1, _⟩ => ⟨S4000000, .i32⟩
  | .hbm, ⟨2, _⟩ => ⟨S4000000x3, .f32⟩
  | .hbm, ⟨3, _⟩ => ⟨S200000, .f32⟩
  | .hbm, ⟨4, _⟩ => ⟨S200000, .f32⟩
  | .hbm, ⟨5, _⟩ => ⟨S200000, .f32⟩
  | .hbm, ⟨6, _⟩ => ⟨S4000000x3, .f32⟩
  | .hbm, ⟨7, _⟩ => ⟨S_, .f32⟩
  | .hbm, ⟨8, _⟩ => ⟨S4000000, .f32⟩
  | .hbm, ⟨9, _⟩ => ⟨S4000000, .f32⟩
  | .hbm, ⟨10, _⟩ => ⟨S200000x1, .f32⟩
  | .hbm, ⟨11, _⟩ => ⟨S200000x1, .f32⟩
  | .hbm, ⟨12, _⟩ => ⟨S200000x1, .f32⟩
  | .hbm, ⟨13, _⟩ => ⟨S200000x3, .f32⟩
  | .hbm, ⟨14, _⟩ => ⟨S_, .i32⟩
  | .hbm, ⟨15, _⟩ => ⟨S4000000, .i32⟩
  | .hbm, ⟨16, _⟩ => ⟨S4000000, .i1⟩
  | .hbm, ⟨17, _⟩ => ⟨S_, .i32⟩
  | .hbm, ⟨18, _⟩ => ⟨S4000000, .i32⟩
  | .hbm, ⟨19, _⟩ => ⟨S4000000, .i32⟩
  | .hbm, ⟨20, _⟩ => ⟨S4000000, .i32⟩
  | .hbm, ⟨21, _⟩ => ⟨S4000000x1, .i32⟩
  | .hbm, ⟨22, _⟩ => ⟨S4000000x3, .f32⟩
  | .hbm, ⟨23, _⟩ => ⟨S_, .i32⟩
  | .hbm, ⟨24, _⟩ => ⟨S4000000, .i32⟩
  | .hbm, ⟨25, _⟩ => ⟨S4000000, .i1⟩
  | .hbm, ⟨26, _⟩ => ⟨S_, .i32⟩
  | .hbm, ⟨27, _⟩ => ⟨S4000000, .i32⟩
  | .hbm, ⟨28, _⟩ => ⟨S4000000, .i32⟩
  | .hbm, ⟨29, _⟩ => ⟨S4000000, .i32⟩
  | .hbm, ⟨30, _⟩ => ⟨S4000000x1, .i32⟩
  | .hbm, ⟨31, _⟩ => ⟨S4000000x3, .f32⟩
  | .hbm, ⟨32, _⟩ => ⟨S4000000x1, .f32⟩
  | .hbm, ⟨33, _⟩ => ⟨S4000000, .f32⟩
  | .hbm, ⟨34, _⟩ => ⟨S4000000x1, .f32⟩
  | .hbm, ⟨35, _⟩ => ⟨S4000000, .f32⟩
  | .hbm, ⟨36, _⟩ => ⟨S4000000, .f32⟩
  | .hbm, ⟨37, _⟩ => ⟨S4000000x1, .f32⟩
  | .hbm, ⟨38, _⟩ => ⟨S4000000, .f32⟩
  | .hbm, ⟨39, _⟩ => ⟨S4000000x1, .f32⟩
  | .hbm, ⟨40, _⟩ => ⟨S4000000, .f32⟩
  | .hbm, ⟨41, _⟩ => ⟨S4000000, .f32⟩
  | .hbm, ⟨42, _⟩ => ⟨S4000000, .f32⟩
  | .hbm, ⟨43, _⟩ => ⟨S4000000x1, .f32⟩
  | .hbm, ⟨44, _⟩ => ⟨S4000000, .f32⟩
  | .hbm, ⟨45, _⟩ => ⟨S4000000x1, .f32⟩
  | .hbm, ⟨46, _⟩ => ⟨S4000000, .f32⟩
  | .hbm, ⟨47, _⟩ => ⟨S4000000, .f32⟩
  | .hbm, ⟨48, _⟩ => ⟨S_, .f32⟩
  | .hbm, ⟨49, _⟩ => ⟨S4000000, .f32⟩
  | .hbm, ⟨50, _⟩ => ⟨S4000000, .f32⟩
  | .hbm, ⟨51, _⟩ => ⟨S_, .f32⟩
  | .hbm, ⟨52, _⟩ => ⟨S_, .f32⟩
  | .hbm, ⟨53, _⟩ => ⟨S4063232, .f32⟩
  | .hbm, ⟨54, _⟩ => ⟨S_, .f32⟩
  | .hbm, ⟨55, _⟩ => ⟨S_, .f32⟩
  | .hbm, ⟨56, _⟩ => ⟨S4063232, .f32⟩
  | .hbm, ⟨57, _⟩ => ⟨S_, .f32⟩
  | .hbm, ⟨58, _⟩ => ⟨S_, .f32⟩
  | .hbm, ⟨59, _⟩ => ⟨S4063232, .f32⟩
  | .hbm, ⟨60, _⟩ => ⟨S_, .f32⟩
  | .hbm, ⟨61, _⟩ => ⟨S_, .f32⟩
  | .hbm, ⟨62, _⟩ => ⟨S4063232, .f32⟩
  | .hbm, ⟨63, _⟩ => ⟨S4063232, .f32⟩
  | .hbm, ⟨64, _⟩ => ⟨S4063232, .f32⟩
  | .hbm, ⟨65, _⟩ => ⟨S4063232, .f32⟩
  | .hbm, ⟨66, _⟩ => ⟨S4063232, .f32⟩
  | .hbm, ⟨67, _⟩ => ⟨S4000000, .f32⟩
  | .hbm, ⟨68, _⟩ => ⟨S4000000, .f32⟩
  | .hbm, ⟨69, _⟩ => ⟨S4000000, .f32⟩
  | .hbm, ⟨70, _⟩ => ⟨S4000000, .f32⟩
  | .hbm, ⟨71, _⟩ => ⟨S4000000x1, .f32⟩
  | .hbm, ⟨72, _⟩ => ⟨S4000000x3, .f32⟩
  | .hbm, ⟨73, _⟩ => ⟨S4000000x3, .f32⟩
  | .hbm, ⟨74, _⟩ => ⟨S4000000x1, .f32⟩
  | .hbm, ⟨75, _⟩ => ⟨S4000000x3, .f32⟩
  | .hbm, ⟨76, _⟩ => ⟨S4000000x3, .f32⟩
  | .local _ .vmem, ⟨0, _⟩ => ⟨S131072, .f32⟩
  | .local _ .vmem, ⟨1, _⟩ => ⟨S131072, .f32⟩
  | .local _ .vmem, ⟨2, _⟩ => ⟨S131072, .f32⟩
  | .local _ .vmem, ⟨3, _⟩ => ⟨S131072, .f32⟩
  | .local _ .vmem, ⟨4, _⟩ => ⟨S131072, .f32⟩
  | .local _ .vmem, ⟨5, _⟩ => ⟨S131072, .f32⟩
  | .local _ .vmem, ⟨6, _⟩ => ⟨S131072, .f32⟩
  | .local _ .vmem, ⟨7, _⟩ => ⟨S131072, .f32⟩
  | .local _ .vmem, ⟨8, _⟩ => ⟨S131072, .f32⟩
  | .local _ .vmem, ⟨9, _⟩ => ⟨S131072, .f32⟩
  | .local _ .vmem, ⟨10, _⟩ => ⟨S131072, .f32⟩
  | .local _ .vmem, ⟨11, _⟩ => ⟨S131072, .f32⟩
  | .local _ .vmem, ⟨12, _⟩ => ⟨S131072, .f32⟩
  | .local _ .vmem, ⟨13, _⟩ => ⟨S131072, .f32⟩
  | .local _ .vmem, ⟨14, _⟩ => ⟨S131072, .f32⟩
  | .local _ .vmem, ⟨15, _⟩ => ⟨S131072, .f32⟩
  | _, _ => ⟨S4000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_call0_v0 : Ref sig .tc := ⟨.hbm, 52, rfl⟩
abbrev main_v39 : Ref sig .tc := ⟨.hbm, 53, rfl⟩
abbrev main_cst_5 : Ref sig .tc := ⟨.hbm, 54, rfl⟩
abbrev main_call1_v0 : Ref sig .tc := ⟨.hbm, 55, rfl⟩
abbrev main_v40 : Ref sig .tc := ⟨.hbm, 56, rfl⟩
abbrev main_cst_6 : Ref sig .tc := ⟨.hbm, 57, rfl⟩
abbrev main_call2_v0 : Ref sig .tc := ⟨.hbm, 58, rfl⟩
abbrev main_v41 : Ref sig .tc := ⟨.hbm, 59, rfl⟩
abbrev main_cst_7 : Ref sig .tc := ⟨.hbm, 60, rfl⟩
abbrev main_call3_v0 : Ref sig .tc := ⟨.hbm, 61, rfl⟩
abbrev main_v42 : Ref sig .tc := ⟨.hbm, 62, rfl⟩
abbrev main_v43_0 : Ref sig .tc := ⟨.hbm, 63, rfl⟩
abbrev main_v43_1 : Ref sig .tc := ⟨.hbm, 64, rfl⟩
abbrev main_v43_2 : Ref sig .tc := ⟨.hbm, 65, rfl⟩
abbrev main_v43_3 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![31], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 1 → Nat :=
  let arg0 : BitVec 32 := BitVec.ofNat 32 (i 0).val
  let c0_i32 : BitVec 32 := 0#32
  ![arg0.toNat]

def cc0_transform_7 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S131072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S131072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S131072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S131072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S131072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S131072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S131072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  reducesTo_S4000000x3_S4000000_d1 : S4000000x3.ReducesTo [1] S4000000
  h_S_ : 0 < S_.numel
  bcast_S200000_S200000x1_0 : S200000.BroadcastsInDim S200000x1 (![0] : Fin 1 → Fin S200000x1.rank)
  concatenates_S200000x1_S200000x1_S200000x1_S200000x3_d1 : Shape.Concatenates [S200000x1, S200000x1, S200000x1] S200000x3 1
  bcast_S_S4000000 : S_.BroadcastsInDim S4000000 (![] : Fin 0 → Fin S4000000.rank)
  bcast_S4000000_S4000000x1_0 : S4000000.BroadcastsInDim S4000000x1 (![0] : Fin 1 → Fin S4000000x1.rank)
  slices_S4000000x3_S4000000x1_0_0 : S4000000x3.Slices ![0, 0] S4000000x1
  shapeCasts_S4000000x1_S4000000 : S4000000x1.ShapeCasts S4000000
  slices_S4000000x3_S4000000x1_0_1 : S4000000x3.Slices ![0, 1] S4000000x1
  slices_S4000000x3_S4000000x1_0_2 : S4000000x3.Slices ![0, 2] S4000000x1
  pads_S4000000_S4063232_0632320 : S4000000.Pads (![0] : Fin 1 → Nat) ![63232] ![0] S4063232
  inb_S131072_S131072_0 : ∀ a, (![0] : Fin 1 → Nat) a + S131072.size a ≤ S131072.size a
  h_S131072 : 0 < S131072.numel
  shapeCasts_S131072_S131072 : S131072.ShapeCasts S131072
  slices_S4063232_S4000000_0 : S4063232.Slices ![0] S4000000
  bcast_S4000000x1_S4000000x3_0_1 : S4000000x1.BroadcastsInDim S4000000x3 (![0, 1] : Fin 2 → Fin S4000000x3.rank)
  gather_S200000x3_S4000000x1_S4000000x3_1_0_n_n_0_1_13_wf : GatherDims.WF S200000x3 S4000000x1 S4000000x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S131072.size a ≤ S4063232.size a
  hwx0_0 : ∀ i : grid0.Coords, EltTy.bits .f32 = 32 ∨ (Rect.block (s := S4063232) S131072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S131072.size a ≤ S4063232.size a
  hwx0_1 : ∀ i : grid0.Coords, EltTy.bits .f32 = 32 ∨ (Rect.block (s := S4063232) S131072.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S131072.size a ≤ S4063232.size a
  hwx0_2 : ∀ i : grid0.Coords, EltTy.bits .f32 = 32 ∨ (Rect.block (s := S4063232) S131072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S131072.size a ≤ S4063232.size a
  hwx0_3 : ∀ i : grid0.Coords, EltTy.bits .f32 = 32 ∨ (Rect.block (s := S4063232) S131072.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S131072.size a ≤ S4063232.size a
  hwx0_4 : ∀ i : grid0.Coords, EltTy.bits .f32 = 32 ∨ (Rect.block (s := S4063232) S131072.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S131072.size a ≤ S4063232.size a
  hwx0_5 : ∀ i : grid0.Coords, EltTy.bits .f32 = 32 ∨ (Rect.block (s := S4063232) S131072.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S131072.size a ≤ S4063232.size a
  hwx0_6 : ∀ i : grid0.Coords, EltTy.bits .f32 = 32 ∨ (Rect.block (s := S4063232) S131072.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S131072.size a ≤ S4063232.size a
  hwx0_7 : ∀ i : grid0.Coords, EltTy.bits .f32 = 32 ∨ (Rect.block (s := S4063232) S131072.size (cc0_transform_7 i) (hinb0_7 i)).WholeWords (EltTy.packing .f32)

variable [Facts₀]

def gather_S200000x3_S4000000x1_S4000000x3_1_0_n_n_0_1_13 : GatherDims S200000x3 S4000000x1 S4000000x3 where
  offsetDims := [1]
  collapsedSliceDims := [0]
  operandBatchingDims := []
  startIndicesBatchingDims := []
  startIndexMap := [0]
  indexVectorDim := 1
  sliceSizes := ![1, 3]
  wf := gather_S200000x3_S4000000x1_S4000000x3_1_0_n_n_0_1_13_wf

abbrev win0_0 : Pipeline.Window sig grid0 :=
  Pipeline.Window.ofSpec (Memref.whole main_v39) S131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S131072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S131072.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v42) S131072.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v43_0) S131072.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v43_1) S131072.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v43_2) S131072.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v43_3) S131072.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4000000 : Shape := ⟨1, ![4000000]⟩
abbrev S4000000x3 : Shape := ⟨2, ![4000000, 3]⟩
abbrev S200000 : Shape := ⟨1, ![200000]⟩
abbrev S_ : Shape := ⟨0, ![]⟩
abbrev S4000000x1 : Shape := ⟨2, ![4000000, 1]⟩

abbrev nBuf : Space → Nat
  | .hbm => 233
  | .vmem => 0
  | .smem => 0
  | _ => 0

abbrev hbmTy0_0 (i : Nat) : BufTy := match i % 128 with
  | 0 => ⟨S4000000, .i32⟩
  | 1 => ⟨S4000000, .i32⟩
  | 2 => ⟨S4000000x3, .f32⟩
  | 3 => ⟨S200000, .f32⟩
  | 4 => ⟨S200000, .f32⟩
  | 5 => ⟨S200000, .f32⟩
  | 6 => ⟨S4000000x3, .f32⟩
  | 7 => ⟨S_, .f32⟩
  | 8 => ⟨S4000000, .f32⟩
  | 9 => ⟨S4000000, .f32⟩
  | 10 => ⟨S_, .i32⟩
  | 11 => ⟨S4000000, .i32⟩
  | 12 => ⟨S4000000, .i1⟩
  | 13 => ⟨S_, .i32⟩
  | 14 => ⟨S4000000, .i32⟩
  | 15 => ⟨S4000000, .i32⟩
  | 16 => ⟨S4000000, .i32⟩
  | 17 => ⟨S4000000x1, .i32⟩
  | 18 => ⟨S4000000, .f32⟩
  | 19 => ⟨S_, .f32⟩
  | 20 => ⟨S4000000, .f32⟩
  | 21 => ⟨S4000000, .f32⟩
  | 22 => ⟨S_, .i32⟩
  | 23 => ⟨S4000000, .i32⟩
  | 24 => ⟨S4000000, .i1⟩
  | 25 => ⟨S_, .i32⟩
  | 26 => ⟨S4000000, .i32⟩
  | 27 => ⟨S4000000, .i32⟩
  | 28 => ⟨S4000000, .i32⟩
  | 29 => ⟨S4000000x1, .i32⟩
  | 30 => ⟨S4000000, .f32⟩
  | 31 => ⟨S4000000, .f32⟩
  | 32 => ⟨S4000000, .f32⟩
  | 33 => ⟨S_, .f32⟩
  | 34 => ⟨S4000000, .f32⟩
  | 35 => ⟨S4000000, .f32⟩
  | 36 => ⟨S_, .f32⟩
  | 37 => ⟨S4000000, .f32⟩
  | 38 => ⟨S4000000, .f32⟩
  | 39 => ⟨S4000000, .f32⟩
  | 40 => ⟨S4000000, .f32⟩
  | 41 => ⟨S_, .f32⟩
  | 42 => ⟨S4000000, .f32⟩
  | 43 => ⟨S4000000, .f32⟩
  | 44 => ⟨S_, .f32⟩
  | 45 => ⟨S4000000, .f32⟩
  | 46 => ⟨S4000000, .f32⟩
  | 47 => ⟨S_, .f32⟩
  | 48 => ⟨S4000000, .f32⟩
  | 49 => ⟨S4000000, .f32⟩
  | 50 => ⟨S_, .f32⟩
  | 51 => ⟨S4000000, .f32⟩
  | 52 => ⟨S4000000, .f32⟩
  | 53 => ⟨S_, .f32⟩
  | 54 => ⟨S4000000, .f32⟩
  | 55 => ⟨S4000000, .f32⟩
  | 56 => ⟨S_, .f32⟩
  | 57 => ⟨S4000000, .f32⟩
  | 58 => ⟨S4000000, .f32⟩
  | 59 => ⟨S4000000, .f32⟩
  | 60 => ⟨S4000000, .f32⟩
  | 61 => ⟨S4000000, .i1⟩
  | 62 => ⟨S4000000, .f32⟩
  | 63 => ⟨S4000000, .f32⟩
  | 64 => ⟨S4000000, .f32⟩
  | 65 => ⟨S4000000, .f32⟩
  | 66 => ⟨S4000000, .f32⟩
  | 67 => ⟨S4000000, .f32⟩
  | 68 => ⟨S4000000, .f32⟩
  | 69 => ⟨S4000000, .f32⟩
  | 70 => ⟨S_, .f32⟩
  | 71 => ⟨S4000000, .f32⟩
  | 72 => ⟨S4000000, .f32⟩
  | 73 => ⟨S_, .f32⟩
  | 74 => ⟨S4000000, .f32⟩
  | 75 => ⟨S4000000, .f32⟩
  | 76 => ⟨S_, .f32⟩
  | 77 => ⟨S4000000, .f32⟩
  | 78 => ⟨S4000000, .f32⟩
  | 79 => ⟨S4000000, .f32⟩
  | 80 => ⟨S4000000, .f32⟩
  | 81 => ⟨S4000000, .f32⟩
  | 82 => ⟨S4000000, .f32⟩
  | 83 => ⟨S4000000, .f32⟩
  | 84 => ⟨S_, .f32⟩
  | 85 => ⟨S4000000, .f32⟩
  | 86 => ⟨S4000000, .f32⟩
  | 87 => ⟨S4000000, .f32⟩
  | 88 => ⟨S4000000, .f32⟩
  | 89 => ⟨S4000000, .f32⟩
  | 90 => ⟨S_, .f32⟩
  | 91 => ⟨S4000000, .f32⟩
  | 92 => ⟨S4000000, .f32⟩
  | 93 => ⟨S_, .f32⟩
  | 94 => ⟨S4000000, .f32⟩
  | 95 => ⟨S4000000, .f32⟩
  | 96 => ⟨S_, .f32⟩
  | 97 => ⟨S4000000, .f32⟩
  | 98 => ⟨S4000000, .f32⟩
  | 99 => ⟨S_, .f32⟩
  | 100 => ⟨S4000000, .f32⟩
  | 101 => ⟨S4000000, .f32⟩
  | 102 => ⟨S_, .f32⟩
  | 103 => ⟨S4000000, .f32⟩
  | 104 => ⟨S4000000, .f32⟩
  | 105 => ⟨S4000000, .f32⟩
  | 106 => ⟨S_, .f32⟩
  | 107 => ⟨S4000000, .f32⟩
  | 108 => ⟨S4000000, .f32⟩
  | 109 => ⟨S4000000, .f32⟩
  | 110 => ⟨S_, .f32⟩
  | 111 => ⟨S4000000, .f32⟩
  | 112 => ⟨S4000000, .f32⟩
  | 113 => ⟨S4000000, .f32⟩
  | 114 => ⟨S_, .f32⟩
  | 115 => ⟨S4000000, .f32⟩
  | 116 => ⟨S4000000, .f32⟩
  | 117 => ⟨S4000000, .f32⟩
  | 118 => ⟨S4000000, .f32⟩
  | 119 => ⟨S_, .f32⟩
  | 120 => ⟨S4000000, .f32⟩
  | 121 => ⟨S4000000, .f32⟩
  | 122 => ⟨S4000000, .f32⟩
  | 123 => ⟨S4000000, .f32⟩
  | 124 => ⟨S_, .f32⟩
  | 125 => ⟨S4000000, .f32⟩
  | 126 => ⟨S4000000, .f32⟩
  | 127 => ⟨S4000000, .f32⟩
  | _ => ⟨S4000000, .i32⟩

abbrev hbmTy0_1 (i : Nat) : BufTy := match i % 128 with
  | 0 => ⟨S4000000, .f32⟩
  | 1 => ⟨S_, .f32⟩
  | 2 => ⟨S4000000, .f32⟩
  | 3 => ⟨S4000000, .f32⟩
  | 4 => ⟨S4000000, .f32⟩
  | 5 => ⟨S4000000, .f32⟩
  | 6 => ⟨S4000000, .f32⟩
  | 7 => ⟨S4000000, .f32⟩
  | 8 => ⟨S4000000x1, .f32⟩
  | 9 => ⟨S4000000x3, .f32⟩
  | 10 => ⟨S4000000x3, .f32⟩
  | 11 => ⟨S_, .i32⟩
  | 12 => ⟨S4000000, .i32⟩
  | 13 => ⟨S4000000, .i1⟩
  | 14 => ⟨S_, .i32⟩
  | 15 => ⟨S4000000, .i32⟩
  | 16 => ⟨S4000000, .i32⟩
  | 17 => ⟨S4000000, .i32⟩
  | 18 => ⟨S4000000x1, .i32⟩
  | 19 => ⟨S4000000, .f32⟩
  | 20 => ⟨S_, .i32⟩
  | 21 => ⟨S4000000, .i32⟩
  | 22 => ⟨S4000000, .i1⟩
  | 23 => ⟨S_, .i32⟩
  | 24 => ⟨S4000000, .i32⟩
  | 25 => ⟨S4000000, .i32⟩
  | 26 => ⟨S4000000, .i32⟩
  | 27 => ⟨S4000000x1, .i32⟩
  | 28 => ⟨S4000000, .f32⟩
  | 29 => ⟨S4000000, .f32⟩
  | 30 => ⟨S4000000, .f32⟩
  | 31 => ⟨S_, .i32⟩
  | 32 => ⟨S4000000, .i32⟩
  | 33 => ⟨S4000000, .i1⟩
  | 34 => ⟨S_, .i32⟩
  | 35 => ⟨S4000000, .i32⟩
  | 36 => ⟨S4000000, .i32⟩
  | 37 => ⟨S4000000, .i32⟩
  | 38 => ⟨S4000000x1, .i32⟩
  | 39 => ⟨S4000000, .f32⟩
  | 40 => ⟨S_, .i32⟩
  | 41 => ⟨S4000000, .i32⟩
  | 42 => ⟨S4000000, .i1⟩
  | 43 => ⟨S_, .i32⟩
  | 44 => ⟨S4000000, .i32⟩
  | 45 => ⟨S4000000, .i32⟩
  | 46 => ⟨S4000000, .i32⟩
  | 47 => ⟨S4000000x1, .i32⟩
  | 48 => ⟨S4000000, .f32⟩
  | 49 => ⟨S4000000, .f32⟩
  | 50 => ⟨S_, .f32⟩
  | 51 => ⟨S4000000, .f32⟩
  | 52 => ⟨S4000000, .f32⟩
  | 53 => ⟨S4000000, .f32⟩
  | 54 => ⟨S4000000, .f32⟩
  | 55 => ⟨S4000000, .f32⟩
  | 56 => ⟨S_, .f32⟩
  | 57 => ⟨S4000000, .f32⟩
  | 58 => ⟨S4000000, .f32⟩
  | 59 => ⟨S_, .f32⟩
  | 60 => ⟨S4000000, .f32⟩
  | 61 => ⟨S4000000, .f32⟩
  | 62 => ⟨S4000000, .f32⟩
  | 63 => ⟨S4000000, .f32⟩
  | 64 => ⟨S_, .f32⟩
  | 65 => ⟨S4000000, .f32⟩
  | 66 => ⟨S4000000, .f32⟩
  | 67 => ⟨S_, .f32⟩
  | 68 => ⟨S4000000, .f32⟩
  | 69 => ⟨S4000000, .f32⟩
  | 70 => ⟨S_, .f32⟩
  | 71 => ⟨S4000000, .f32⟩
  | 72 => ⟨S4000000, .f32⟩
  | 73 => ⟨S4000000, .f32⟩
  | 74 => ⟨S4000000, .f32⟩
  | 75 => ⟨S4000000, .f32⟩
  | 76 => ⟨S_, .f32⟩
  | 77 => ⟨S4000000, .f32⟩
  | 78 => ⟨S4000000, .f32⟩
  | 79 => ⟨S4000000, .f32⟩
  | 80 => ⟨S4000000, .f32⟩
  | 81 => ⟨S4000000, .f32⟩
  | 82 => ⟨S4000000, .f32⟩
  | 83 => ⟨S4000000, .f32⟩
  | 84 => ⟨S4000000, .f32⟩
  | 85 => ⟨S4000000, .f32⟩
  | 86 => ⟨S4000000, .f32⟩
  | 87 => ⟨S_, .f32⟩
  | 88 => ⟨S4000000, .f32⟩
  | 89 => ⟨S4000000, .f32⟩
  | 90 => ⟨S_, .f32⟩
  | 91 => ⟨S4000000, .f32⟩
  | 92 => ⟨S4000000, .f32⟩
  | 93 => ⟨S4000000, .f32⟩
  | 94 => ⟨S4000000, .f32⟩
  | 95 => ⟨S4000000, .f32⟩
  | 96 => ⟨S4000000, .f32⟩
  | 97 => ⟨S4000000, .f32⟩
  | 98 => ⟨S4000000x1, .f32⟩
  | 99 => ⟨S4000000x3, .f32⟩
  | 100 => ⟨S4000000x3, .f32⟩
  | 101 => ⟨S_, .f32⟩
  | 102 => ⟨S4000000, .f32⟩
  | 103 => ⟨S4000000, .f32⟩
  | 104 => ⟨S4000000, .f32⟩
  | _ => ⟨S4000000, .i32⟩

abbrev hbmTy (i : Nat) : BufTy := match i / 128 with
  | 0 => hbmTy0_0 i
  | 1 => hbmTy0_1 i
  | _ => ⟨S4000000, .i32⟩

abbrev bufTy : (tb : Table) → Fin (tcTables nBuf tb) → BufTy
  | .hbm, ⟨i, _⟩ => hbmTy i
  | _, _ => ⟨S4000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_cst_10 : Ref sig .tc := ⟨.hbm, 53, rfl⟩
abbrev main_v35 : Ref sig .tc := ⟨.hbm, 54, rfl⟩
abbrev main_v36 : Ref sig .tc := ⟨.hbm, 55, rfl⟩
abbrev main_call0_cst : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_v6 : Ref sig .tc := ⟨.hbm, 63, rfl⟩
abbrev main_call0_v7 : Ref sig .tc := ⟨.hbm, 64, rfl⟩
abbrev main_call0_v8 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_v37 : Ref sig .tc := ⟨.hbm, 69, rfl⟩
abbrev main_cst_11 : Ref sig .tc := ⟨.hbm, 70, rfl⟩
abbrev main_v38 : Ref sig .tc := ⟨.hbm, 71, rfl⟩
abbrev main_v39 : Ref sig .tc := ⟨.hbm, 72, rfl⟩
abbrev main_cst_12 : Ref sig .tc := ⟨.hbm, 73, rfl⟩
abbrev main_v40 : Ref sig .tc := ⟨.hbm, 74, rfl⟩
abbrev main_v41 : Ref sig .tc := ⟨.hbm, 75, rfl⟩
abbrev main_cst_13 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_14 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_15 : Ref sig .tc := ⟨.hbm, 90, rfl⟩
abbrev main_v54 : Ref sig .tc := ⟨.hbm, 91, rfl⟩
abbrev main_v55 : Ref sig .tc := ⟨.hbm, 92, rfl⟩
abbrev main_cst_16 : Ref sig .tc := ⟨.hbm, 93, rfl⟩
abbrev main_v56 : Ref sig .tc := ⟨.hbm, 94, rfl⟩
abbrev main_v57 : Ref sig .tc := ⟨.hbm, 95, rfl⟩
abbrev main_cst_17 : Ref sig .tc := ⟨.hbm, 96, rfl⟩
abbrev main_v58 : Ref sig .tc := ⟨.hbm, 97, rfl⟩
abbrev main_v59 : Ref sig .tc := ⟨.hbm, 98, rfl⟩
abbrev main_cst_18 : Ref sig .tc := ⟨.hbm, 99, rfl⟩
abbrev main_v60 : Ref sig .tc := ⟨.hbm, 100, rfl⟩
abbrev main_v61 : Ref sig .tc := ⟨.hbm, 101, rfl⟩
abbrev main_cst_19 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_20 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_cst_21 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_cst_22 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_cst_23 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_cst_24 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_cst_25 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_c_26 : Ref sig .tc := ⟨.hbm, 139, rfl⟩
abbrev main_v92 : Ref sig .tc := ⟨.hbm, 140, rfl⟩
abbrev main_v93 : Ref sig .tc := ⟨.hbm, 141, rfl⟩
abbrev main_c_27 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_c_28 : Ref sig .tc := ⟨.hbm, 148, rfl⟩
abbrev main_v99 : Ref sig .tc := ⟨.hbm, 149, rfl⟩
abbrev main_v100 : Ref sig .tc := ⟨.hbm, 150, rfl⟩
abbrev main_c_29 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_c_30 : Ref sig .tc := ⟨.hbm, 159, rfl⟩
abbrev main_v108 : Ref sig .tc := ⟨.hbm, 160, rfl⟩
abbrev main_v109 : Ref sig .tc := ⟨.hbm, 161, rfl⟩
abbrev main_c_31 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_c_32 : Ref sig .tc := ⟨.hbm, 168, rfl⟩
abbrev main_v115 : Ref sig .tc := ⟨.hbm, 169, rfl⟩
abbrev main_v116 : Ref sig .tc := ⟨.hbm, 170, rfl⟩
abbrev main_c_33 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_cst_34 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_cst_35 : Ref sig .tc := ⟨.hbm, 184, rfl⟩
abbrev main_v128 : Ref sig .tc := ⟨.hbm, 185, rfl⟩
abbrev main_v129 : Ref sig .tc := ⟨.hbm, 186, rfl⟩
abbrev main_cst_36 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_cst_37 : Ref sig .tc := ⟨.hbm, 192, rfl⟩
abbrev main_v134 : Ref sig .tc := ⟨.hbm, 193, rfl⟩
abbrev main_v135 : Ref sig .tc := ⟨.hbm, 194, rfl⟩
abbrev main_cst_38 : Ref sig .tc := ⟨.hbm, 195, rfl⟩
abbrev main_v136 : Ref sig .tc := ⟨.hbm, 196, rfl⟩
abbrev main_v137 : Ref sig .tc := ⟨.hbm, 197, rfl⟩
abbrev main_cst_39 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_cst_40 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_cst_41 : Ref sig .tc := ⟨.hbm, 215, rfl⟩
abbrev main_v153 : Ref sig .tc := ⟨.hbm, 216, rfl⟩
abbrev main_v154 : Ref sig .tc := ⟨.hbm, 217, rfl⟩
abbrev main_cst_42 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_cst_43 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩

abbrev nD : Nat := 1
abbrev τ : Topo := Topo.v7x

variable {F : FTy → Type} [FloatOps F]

class Facts₀ : Prop where
  reducesTo_S4000000x3_S4000000_d1 : S4000000x3.ReducesTo [1] S4000000
  h_S_ : 0 < S_.numel
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S4000000x1_S4000000x3_0_1 : S4000000x1.BroadcastsInDim S4000000x3 (![0, 1] : Fin 2 → Fin S4000000x3.rank)
  gather_S200000_S4000000x1_S4000000_n_0_n_n_0_1_1_wf : GatherDims.WF S200000 S4000000x1 S4000000 [] [0] [] [0] [] 1 ![1]

variable [Facts₀]

def gather_S200000_S4000000x1_S4000000_n_0_n_n_0_1_1 : GatherDims S200000 S4000000x1 S4000000 where
  offsetDims := []
  collapsedSliceDims := [0]
  operandBatchingDims := []
  startIndicesBatchingDims := []
  startIndexMap := [0]
  indexVectorDim := 1
  sliceSizes := ![1]
  wf := gather_S200000_S4000000x1_S4000000_n_0_n_n_0_1_1_wf

class Facts : Prop extends Facts₀ where

variable [Facts]
-- ==== Proof.FrameBits.lean ====
/-
  The frame of the program `Kernel`, written against the library's launch theorem for an entry point that runs host
  operations, one kernel region, and host operations again.

  The region is one elementwise kernel over a grid of 31 points. At point `t` it is handed block `t` (131072 consecutive
  entries) of four padded input vectors and leaves block `t` of four output vectors: every output entry is a function of
  the four input entries at the same position only. The proof data says exactly that: after the body each input buffer still
  holds its block, and each output buffer holds the body's stored value computed from the four input blocks. The body's
  triple is obtained by running its skeleton of loads and stores symbolically; the loads of the output buffers that
  precede the stores are dead (their values are never used), so the outputs may hold anything on entry.

  From the run we read off (a) that no host operation and no write-back touches an argument array, which is the frame,
  and (b) each output array after the region as the blocks the points wrote, for the value claim.
-/
import proofs.«156834_j37752762532668_2_alg».proof.Proof.Gen.Kernel.Launch
import proofs.«156834_j37752762532668_2_alg».proof.Proof.Gen.Kernel.Skeleton
import proofs.«156834_j37752762532668_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry point around the region -/

/-- The buffers' contents when the region is entered: the launch contents after the eight stretches of host operations
    that come first (the distance, the packed table and its two gathers, the three per-edge combinations, the four pads). -/
abbrev V0 (c : Dev nD) : Valuation τ sig (Elt F) :=
  StableHlo.after (List.flatten [hostOps0, hostOps0_1, hostOps0_2, hostOps0_3, hostOps0_4, hostOps0_5, hostOps0_6, hostOps0_7]) (fun b => m (c, b))
/-- The same, read at one buffer. -/
abbrev V (c : Dev nD) (b : Ref sig .tc) : Buf (Elt F) ((c : Thread nD τ).loc b) := V0 m c (Proc.devRef .tc b)

theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh0_3 : (hostOps0_3 : List (HloOp τ sig (Elt F))).Forall fun op => op.fresh = ∅ := by
  simp only [List.Forall]; repeat' constructor
theorem fresh0_4 : (hostOps0_4 : List (HloOp τ sig (Elt F))).Forall fun op => op.fresh = ∅ := by
  simp only [List.Forall]; repeat' constructor
theorem fresh0_5 : (hostOps0_5 : List (HloOp τ sig (Elt F))).Forall fun op => op.fresh = ∅ := by
  simp only [List.Forall]; repeat' constructor
theorem fresh0_6 : (hostOps0_6 : List (HloOp τ sig (Elt F))).Forall fun op => op.fresh = ∅ := by
  simp only [List.Forall]; repeat' constructor
theorem fresh0_7 : (hostOps0_7 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor

/-- The entry point reduces to the region continued by the host operations that follow it, the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main
    [hostOps0, hostOps0_1, hostOps0_2, hostOps0_3, hostOps0_4, hostOps0_5, hostOps0_6, hostOps0_7] [hostOps1]
    (by simp only [List.Forall]; exact ⟨hostOps0_sub, hostOps0_1_sub, hostOps0_2_sub, hostOps0_3_sub, hostOps0_4_sub, hostOps0_5_sub, hostOps0_6_sub, hostOps0_7_sub⟩)
    (by simp only [List.Forall]; exact ⟨fresh0, fresh0_1, fresh0_2, fresh0_3, fresh0_4, fresh0_5, fresh0_6, fresh0_7⟩) main_chain

/-- The host operations after the region touch only the region's arrays and buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp fresh1) op hop
/-- and write none of the region's eight arrays: each writes its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)

/-! ## The arguments are left alone by the host operations -/

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does one after it, and it is none of the region's arrays: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does one after it, and it is none of the region's arrays: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does one after it, and it is none of the region's arrays: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does one after it, and it is none of the region's arrays: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does one after it, and it is none of the region's arrays: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does one after it, and it is none of the region's arrays: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current buffer holds its block at every point. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current buffer holds its block at every point. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current buffer holds its block at every point. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- From a run whose post has every bypassing buffer at its contents after the trailing host operations: the six argument
    arrays end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c)⟩) h

/-! ## What the body leaves in each output buffer -/

/-- The one rectangle the body loads and stores through: a whole block. -/
abbrev whole : Rect S131072 := Rect.unit (s := S131072) ![0] S131072.size inb_S131072_S131072_0

/-- The four values the body stores, from the four loaded blocks (distance, charge product, dispersion coefficient,
    radius): the Coulomb energy, the dispersion energy, and the two force scales. -/
def stored4 (x0 x1 : Vec F S131072 .f32) : FVec F S131072 .f32 :=
  k0_pay11 (k0_pay1 x0) (k0_pay4 x0 x1) (k0_pay7 x0 x1)
def stored5 (x0 x2 x3 : Vec F S131072 .f32) : FVec F S131072 .f32 :=
  k0_pay18 (k0_pay1 x0) (k0_pay2 x2) (k0_pay3 x3) (k0_pay13 (k0_pay1 x0))
def stored6 (x0 x1 : Vec F S131072 .f32) : FVec F S131072 .f32 :=
  k0_pay12 (k0_pay1 x0) (k0_pay4 x0 x1) (k0_pay5 x0) (k0_pay6 x0)
def stored7 (x0 x2 x3 : Vec F S131072 .f32) : FVec F S131072 .f32 :=
  k0_pay17 (k0_pay1 x0) (k0_pay2 x2) (k0_pay3 x3) (k0_pay13 (k0_pay1 x0))

/-- Each output buffer after the body: its one whole-block store. -/
def out4 (x0 x1 : Vec F S131072 .f32) : Vec F S131072 .f32 :=
  View.canon [⟨whole, stored4 (View.ld x0 whole) (View.ld x1 whole)⟩]
def out5 (x0 x2 x3 : Vec F S131072 .f32) : Vec F S131072 .f32 :=
  View.canon [⟨whole, stored5 (View.ld x0 whole) (View.ld x2 whole) (View.ld x3 whole)⟩]
def out6 (x0 x1 : Vec F S131072 .f32) : Vec F S131072 .f32 :=
  View.canon [⟨whole, stored6 (View.ld x0 whole) (View.ld x1 whole)⟩]
def out7 (x0 x2 x3 : Vec F S131072 .f32) : Vec F S131072 .f32 :=
  View.canon [⟨whole, stored7 (View.ld x0 whole) (View.ld x2 whole) (View.ld x3 whole)⟩]

/-- The block's one axis starts at offset zero. -/
theorem hz : (![0] : Fin S131072.rank → Nat) = fun _ => 0 := by funext a; fin_cases a; rfl

/-- One whole-block store covers the buffer. -/
theorem cover_whole (p0 : Vec F S131072 .f32) (y : S131072.Idx) :
    ∃ pc ∈ ([⟨whole, p0⟩] : List (View.Piece (Elt F) S131072 .f32)), y ∈ pc.1.set :=
  ⟨_, List.mem_singleton.mpr rfl, View.mem_set_unit_zero hz inb_S131072_S131072_0 y⟩

/-! ## The body's triple -/

set_option maxHeartbeats 4000000 in
/-- The body on whole staging buffers, the inputs' at contents `x0 … x3` and the outputs' at anything, runs to its end
    holding the inputs' as they were and each output's at its stored value of the inputs'. -/
theorem sound_kernel (c : Dev nD) (E : Set ℕ) (i : grid0.Coords)
    (arg1 : Memref sig .tc .vmem S131072 .f32) (harg1 : arg1.IsWhole) (arg2 : Memref sig .tc .vmem S131072 .f32) (harg2 : arg2.IsWhole)
    (arg3 : Memref sig .tc .vmem S131072 .f32) (harg3 : arg3.IsWhole) (arg4 : Memref sig .tc .vmem S131072 .f32) (harg4 : arg4.IsWhole)
    (arg5 : Memref sig .tc .vmem S131072 .f32) (harg5 : arg5.IsWhole) (arg6 : Memref sig .tc .vmem S131072 .f32) (harg6 : arg6.IsWhole)
    (arg7 : Memref sig .tc .vmem S131072 .f32) (harg7 : arg7.IsWhole) (arg8 : Memref sig .tc .vmem S131072 .f32) (harg8 : arg8.IsWhole)
    (x0 x1 x2 x3 : Vec F S131072 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out4 x0 x1) ∗ owns (c : Thread nD τ) arg6 fullShare (out5 x0 x2 x3)
            ∗ owns (c : Thread nD τ) arg7 fullShare (out6 x0 x1) ∗ owns (c : Thread nD τ) arg8 fullShare (out7 x0 x2 x3)) -∗ K ⟨⟩))
      ⊢ wp frame (wpE (defs₀ (F := F)) Variants.none c none) E
          (cc0__edge_kernel i arg1 harg1 arg2 harg2 arg3 harg3 arg4 harg4 arg5 harg5 arg6 harg6 arg7 harg7 arg8 harg8) K := by
  simp only [cc0__edge_kernel_eq_skeleton]; unfold cc0__edge_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_whole _)
  isplitl [H5]
  · iexists _; isplitr
    swap; · iexact H5
    ipureintro
    exact View.read_writes_eq_canon _ _ _ (cover_whole _)
  isplitl [H6]
  · iexists _; isplitr
    swap; · iexact H6
    ipureintro
    exact View.read_writes_eq_canon _ _ _ (cover_whole _)
  iexists _; isplitr
  swap; · iexact H7
  ipureintro
  exact View.read_writes_eq_canon _ _ _ (cover_whole _)

/-! ## The proof data -/

/-- On each core: the arrays as the region finds them; after the body at point `t` each input buffer at its block, each
    output buffer at its stored value of the four input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t)
    | ⟨5, _⟩ => out5 (iblk m c 0 t) (iblk m c 2 t) (iblk m c 3 t)
    | ⟨6, _⟩ => out6 (iblk m c 0 t) (iblk m c 1 t)
    | ⟨7, _⟩ => out7 (iblk m c 0 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = out4 (iblk m c 0 t) (iblk m c 1 t) := by dsimp only [dats]
theorem after5 (c : Dev nD) (t : Fin cfg0.N) : (dats m 0 c).after 5 t = out5 (iblk m c 0 t) (iblk m c 2 t) (iblk m c 3 t) := by dsimp only [dats]
theorem after6 (c : Dev nD) (t : Fin cfg0.N) : (dats m 0 c).after 6 t = out6 (iblk m c 0 t) (iblk m c 1 t) := by dsimp only [dats]
theorem after7 (c : Dev nD) (t : Fin cfg0.N) : (dats m 0 c).after 7 t = out7 (iblk m c 0 t) (iblk m c 2 t) (iblk m c 3 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the entry point terminates without a fault; at the end each of the region's arrays holds
    what the proof data computes, and every other unscoped buffer what the trailing host operations leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the entry point runs to its end and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.Kernel.Edge

end
-- ==== Proof.FrameIdeal.lean ====
/-
  The frame of the program `KernelIdeal`, written against the library's launch theorem for an entry point that runs host
  operations, one kernel region, and host operations again.

  The region is one elementwise kernel over a grid of 31 points. At point `t` it is handed block `t` (131072 consecutive
  entries) of four padded input vectors and leaves block `t` of four output vectors: every output entry is a function of
  the four input entries at the same position only. The proof data says exactly that: after the body each input buffer still
  holds its block, and each output buffer holds the body's stored value computed from the four input blocks. The body's
  triple is obtained by running its skeleton of loads and stores symbolically; the loads of the output buffers that
  precede the stores are dead (their values are never used), so the outputs may hold anything on entry.

  From the run we read off (a) that no host operation and no write-back touches an argument array, which is the frame,
  and (b) each output array after the region as the blocks the points wrote, for the value claim.
-/
import proofs.«156834_j37752762532668_2_alg».proof.Proof.Gen.KernelIdeal.Launch
import proofs.«156834_j37752762532668_2_alg».proof.Proof.Gen.KernelIdeal.Skeleton
import proofs.«156834_j37752762532668_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry point around the region -/

/-- The buffers' contents when the region is entered: the launch contents after the eight stretches of host operations
    that come first (the distance, the packed table and its two gathers, the three per-edge combinations, the four pads). -/
abbrev V0 (c : Dev nD) : Valuation τ sig (Elt F) :=
  StableHlo.after (List.flatten [hostOps0, hostOps0_1, hostOps0_2, hostOps0_3, hostOps0_4, hostOps0_5, hostOps0_6, hostOps0_7]) (fun b => m (c, b))
/-- The same, read at one buffer. -/
abbrev V (c : Dev nD) (b : Ref sig .tc) : Buf (Elt F) ((c : Thread nD τ).loc b) := V0 m c (Proc.devRef .tc b)

theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh0_3 : (hostOps0_3 : List (HloOp τ sig (Elt F))).Forall fun op => op.fresh = ∅ := by
  simp only [List.Forall]; repeat' constructor
theorem fresh0_4 : (hostOps0_4 : List (HloOp τ sig (Elt F))).Forall fun op => op.fresh = ∅ := by
  simp only [List.Forall]; repeat' constructor
theorem fresh0_5 : (hostOps0_5 : List (HloOp τ sig (Elt F))).Forall fun op => op.fresh = ∅ := by
  simp only [List.Forall]; repeat' constructor
theorem fresh0_6 : (hostOps0_6 : List (HloOp τ sig (Elt F))).Forall fun op => op.fresh = ∅ := by
  simp only [List.Forall]; repeat' constructor
theorem fresh0_7 : (hostOps0_7 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor

/-- The entry point reduces to the region continued by the host operations that follow it, the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main
    [hostOps0, hostOps0_1, hostOps0_2, hostOps0_3, hostOps0_4, hostOps0_5, hostOps0_6, hostOps0_7] [hostOps1]
    (by simp only [List.Forall]; exact ⟨hostOps0_sub, hostOps0_1_sub, hostOps0_2_sub, hostOps0_3_sub, hostOps0_4_sub, hostOps0_5_sub, hostOps0_6_sub, hostOps0_7_sub⟩)
    (by simp only [List.Forall]; exact ⟨fresh0, fresh0_1, fresh0_2, fresh0_3, fresh0_4, fresh0_5, fresh0_6, fresh0_7⟩) main_chain

/-- The host operations after the region touch only the region's arrays and buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp fresh1) op hop
/-- and write none of the region's eight arrays: each writes its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)

/-! ## The arguments are left alone by the host operations -/

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does one after it, and it is none of the region's arrays: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does one after it, and it is none of the region's arrays: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does one after it, and it is none of the region's arrays: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does one after it, and it is none of the region's arrays: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does one after it, and it is none of the region's arrays: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does one after it, and it is none of the region's arrays: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current buffer holds its block at every point. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current buffer holds its block at every point. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current buffer holds its block at every point. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- From a run whose post has every bypassing buffer at its contents after the trailing host operations: the six argument
    arrays end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c)⟩) h

/-! ## What the body leaves in each output buffer -/

/-- The one rectangle the body loads and stores through: a whole block. -/
abbrev whole : Rect S131072 := Rect.unit (s := S131072) ![0] S131072.size inb_S131072_S131072_0

/-- The four values the body stores, from the four loaded blocks (distance, charge product, dispersion coefficient,
    radius): the Coulomb energy, the dispersion energy, and the two force scales. -/
def stored4 (x0 x1 : Vec F S131072 .f32) : FVec F S131072 .f32 :=
  k0_pay11 (k0_pay1 x0) (k0_pay4 x0 x1) (k0_pay7 x0 x1)
def stored5 (x0 x2 x3 : Vec F S131072 .f32) : FVec F S131072 .f32 :=
  k0_pay18 (k0_pay1 x0) (k0_pay2 x2) (k0_pay3 x3) (k0_pay13 (k0_pay1 x0))
def stored6 (x0 x1 : Vec F S131072 .f32) : FVec F S131072 .f32 :=
  k0_pay12 (k0_pay1 x0) (k0_pay4 x0 x1) (k0_pay5 x0) (k0_pay6 x0)
def stored7 (x0 x2 x3 : Vec F S131072 .f32) : FVec F S131072 .f32 :=
  k0_pay17 (k0_pay1 x0) (k0_pay2 x2) (k0_pay3 x3) (k0_pay13 (k0_pay1 x0))

/-- Each output buffer after the body: its one whole-block store. -/
def out4 (x0 x1 : Vec F S131072 .f32) : Vec F S131072 .f32 :=
  View.canon [⟨whole, stored4 (View.ld x0 whole) (View.ld x1 whole)⟩]
def out5 (x0 x2 x3 : Vec F S131072 .f32) : Vec F S131072 .f32 :=
  View.canon [⟨whole, stored5 (View.ld x0 whole) (View.ld x2 whole) (View.ld x3 whole)⟩]
def out6 (x0 x1 : Vec F S131072 .f32) : Vec F S131072 .f32 :=
  View.canon [⟨whole, stored6 (View.ld x0 whole) (View.ld x1 whole)⟩]
def out7 (x0 x2 x3 : Vec F S131072 .f32) : Vec F S131072 .f32 :=
  View.canon [⟨whole, stored7 (View.ld x0 whole) (View.ld x2 whole) (View.ld x3 whole)⟩]

/-- The block's one axis starts at offset zero. -/
theorem hz : (![0] : Fin S131072.rank → Nat) = fun _ => 0 := by funext a; fin_cases a; rfl

/-- One whole-block store covers the buffer. -/
theorem cover_whole (p0 : Vec F S131072 .f32) (y : S131072.Idx) :
    ∃ pc ∈ ([⟨whole, p0⟩] : List (View.Piece (Elt F) S131072 .f32)), y ∈ pc.1.set :=
  ⟨_, List.mem_singleton.mpr rfl, View.mem_set_unit_zero hz inb_S131072_S131072_0 y⟩

/-! ## The body's triple -/

set_option maxHeartbeats 4000000 in
/-- The body on whole staging buffers, the inputs' at contents `x0 … x3` and the outputs' at anything, runs to its end
    holding the inputs' as they were and each output's at its stored value of the inputs'. -/
theorem sound_kernel (c : Dev nD) (E : Set ℕ) (i : grid0.Coords)
    (arg1 : Memref sig .tc .vmem S131072 .f32) (harg1 : arg1.IsWhole) (arg2 : Memref sig .tc .vmem S131072 .f32) (harg2 : arg2.IsWhole)
    (arg3 : Memref sig .tc .vmem S131072 .f32) (harg3 : arg3.IsWhole) (arg4 : Memref sig .tc .vmem S131072 .f32) (harg4 : arg4.IsWhole)
    (arg5 : Memref sig .tc .vmem S131072 .f32) (harg5 : arg5.IsWhole) (arg6 : Memref sig .tc .vmem S131072 .f32) (harg6 : arg6.IsWhole)
    (arg7 : Memref sig .tc .vmem S131072 .f32) (harg7 : arg7.IsWhole) (arg8 : Memref sig .tc .vmem S131072 .f32) (harg8 : arg8.IsWhole)
    (x0 x1 x2 x3 : Vec F S131072 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out4 x0 x1) ∗ owns (c : Thread nD τ) arg6 fullShare (out5 x0 x2 x3)
            ∗ owns (c : Thread nD τ) arg7 fullShare (out6 x0 x1) ∗ owns (c : Thread nD τ) arg8 fullShare (out7 x0 x2 x3)) -∗ K ⟨⟩))
      ⊢ wp frame (wpE (defs₀ (F := F)) Variants.none c none) E
          (cc0__edge_kernel i arg1 harg1 arg2 harg2 arg3 harg3 arg4 harg4 arg5 harg5 arg6 harg6 arg7 harg7 arg8 harg8) K := by
  simp only [cc0__edge_kernel_eq_skeleton]; unfold cc0__edge_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_whole _)
  isplitl [H5]
  · iexists _; isplitr
    swap; · iexact H5
    ipureintro
    exact View.read_writes_eq_canon _ _ _ (cover_whole _)
  isplitl [H6]
  · iexists _; isplitr
    swap; · iexact H6
    ipureintro
    exact View.read_writes_eq_canon _ _ _ (cover_whole _)
  iexists _; isplitr
  swap; · iexact H7
  ipureintro
  exact View.read_writes_eq_canon _ _ _ (cover_whole _)

/-! ## The proof data -/

/-- On each core: the arrays as the region finds them; after the body at point `t` each input buffer at its block, each
    output buffer at its stored value of the four input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t)
    | ⟨5, _⟩ => out5 (iblk m c 0 t) (iblk m c 2 t) (iblk m c 3 t)
    | ⟨6, _⟩ => out6 (iblk m c 0 t) (iblk m c 1 t)
    | ⟨7, _⟩ => out7 (iblk m c 0 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = out4 (iblk m c 0 t) (iblk m c 1 t) := by dsimp only [dats]
theorem after5 (c : Dev nD) (t : Fin cfg0.N) : (dats m 0 c).after 5 t = out5 (iblk m c 0 t) (iblk m c 2 t) (iblk m c 3 t) := by dsimp only [dats]
theorem after6 (c : Dev nD) (t : Fin cfg0.N) : (dats m 0 c).after 6 t = out6 (iblk m c 0 t) (iblk m c 1 t) := by dsimp only [dats]
theorem after7 (c : Dev nD) (t : Fin cfg0.N) : (dats m 0 c).after 7 t = out7 (iblk m c 0 t) (iblk m c 2 t) (iblk m c 3 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the entry point terminates without a fault; at the end each of the region's arrays holds
    what the proof data computes, and every other unscoped buffer what the trailing host operations leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the entry point runs to its end and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.KernelIdeal.Edge

end
-- ==== Proof.EdgeSpec.lean ====
/-
  The per-edge formulas of the pair potential, as functions of extended reals.

  An edge has a length `r`, a charge product `q`, a dispersion coefficient `c6` and a radius `r0`. The Coulomb part is
  the prefactor `k·q/r` times a switching factor `s(r) = (r/ρ) / (1 + softplus(β(r − ρ)/ρ)/β)`, plus the prefactor times
  `erfc(g·r) − 1`, the complementary error function in its five-term polynomial form in `t = 1/(1 + p·g·r)` times
  `exp(−(g·r)²)`; its force scale has the logistic damping `σ((β/ρ)(r − ρ))` on the first term, the derivative term
  `(2/√π)·g·r·exp(−(g·r)²)` inside the second, and is divided by `r²`. The dispersion part is `−c6/(r⁶ + a⁶)` times the
  damping `0.85 + 0.82/(1 + exp(r − 2.5·r0))`, shifted by `c6/10⁶`; its force scale is the derivative's two terms divided
  by `r`. Every operation is the exact one on the extended reals and every constant is the binary value of its f32 word,
  kept as the word: the same words occur on both sides of the comparison and are never evaluated, except 0 and 1.
  The order and grouping of the operations is the one both programs compute in.
-/
import Idealize.ShloMosaic.PureOps
import Idealize.ShloMosaic.PureOps.Ideal

noncomputable section

namespace Cert.EdgeSpec

open Idealize.ShloMosaic

/-- An f32 value at the ideal instance: an extended real. -/
abbrev E : Type := Ideal .f32

/-- The extended real an f32 word denotes. -/
abbrev lit (w : BitVec 32) : E := FloatOps.ofBits .f32 w

abbrev zero : E := lit 0x00000000#32
abbrev one : E := lit 0x3F800000#32
/-- ρ = 2.2 and β = 18.7, as their f32 words. -/
abbrev rho : E := lit 0x400CCCCD#32
abbrev beta : E := lit 0x4195999A#32

/-- The Coulomb prefactor `k·q / r`. -/
def pref (r q : E) : E := FloatOps.divf (FloatOps.mulf (lit 0x43A60827#32) q) r

/-- The logistic damping `σ(8.5·(r − ρ))`. -/
def damp (r : E) : E := FloatOps.logistic (FloatOps.mulf (lit 0x41080000#32) (FloatOps.subf r rho))

/-- `softplus z = log(1 + eᶻ)` in its overflow-free form `max(z, 0) + log1p(exp(−|z|))`, guarded by a test `z − 0 ≠ z − 0`
    that no extended real passes. -/
def softplus (z : E) : E :=
  Scalar.select (FloatOps.cmpf .one (FloatOps.subf z zero) (FloatOps.subf z zero)) (FloatOps.addf z zero)
    (FloatOps.addf (FloatOps.maximumf z zero)
      (FloatOps.log1p (FloatOps.exp (FloatOps.subf zero (FloatOps.absf (FloatOps.subf z zero))))))

/-- The switching factor `(r/ρ) / (1 + softplus(β(r − ρ)/ρ)/β)`. -/
def sfac (r : E) : E :=
  FloatOps.divf (FloatOps.divf r rho)
    (FloatOps.addf one (FloatOps.divf (softplus (FloatOps.divf (FloatOps.mulf beta (FloatOps.subf r rho)) rho)) beta))

/-- `g·r` with `g = 0.3`. -/
def grij (r : E) : E := FloatOps.mulf (lit 0x3E99999A#32) r

/-- `exp(−(g·r)²)`, the negation written `0 − g·r`. -/
def expm2 (r : E) : E := FloatOps.exp (FloatOps.mulf (FloatOps.subf zero (grij r)) (grij r))

/-- `t = 1 / (1 + p·g·r)`. -/
def tt (r : E) : E := FloatOps.divf one (FloatOps.addf one (FloatOps.mulf (lit 0x3EA7BA05#32) (grij r)))

/-- The polynomial form of `erfc(g·r)`: `t(a₀ + t(a₁ + t(a₂ + t(a₃ + t·a₄))))·exp(−(g·r)²)`. -/
def erfc (r : E) : E :=
  FloatOps.mulf
    (FloatOps.mulf (tt r) (FloatOps.addf (lit 0x3E827906#32)
      (FloatOps.mulf (tt r) (FloatOps.addf (lit 0xBE91A98E#32)
        (FloatOps.mulf (tt r) (FloatOps.addf (lit 0x3FB5F0E3#32)
          (FloatOps.mulf (tt r) (FloatOps.addf (lit 0xBFBA00E3#32) (FloatOps.mulf (tt r) (lit 0x3F87DC22#32))))))))))
    (expm2 r)

/-- The Coulomb energy of an edge. -/
def ecoul (r q : E) : E :=
  FloatOps.addf (FloatOps.mulf (pref r q) (sfac r)) (FloatOps.mulf (pref r q) (FloatOps.subf (erfc r) one))

/-- The Coulomb force scale of an edge: the force's magnitude over `r²`. -/
def fcs (r q : E) : E :=
  FloatOps.divf
    (FloatOps.addf
      (FloatOps.mulf (FloatOps.mulf (FloatOps.mulf (pref r q) (damp r)) (sfac r)) (sfac r))
      (FloatOps.mulf (pref r q)
        (FloatOps.subf (FloatOps.addf (erfc r) (FloatOps.mulf (FloatOps.mulf (lit 0x3F906EBB#32) (grij r)) (expm2 r))) one)))
    (FloatOps.mulf r r)

/-- `r⁶` as `r²·(r²·r²)`. -/
def pow6 (r : E) : E := FloatOps.mulf (FloatOps.mulf r r) (FloatOps.mulf (FloatOps.mulf r r) (FloatOps.mulf r r))

/-- `r⁶ + 4.5⁶`. -/
def r6 (r : E) : E := FloatOps.addf (pow6 r) (lit 0x4601BF10#32)

/-- `e = exp(r − 2.5·r0)`. -/
def ee (r r0 : E) : E := FloatOps.exp (FloatOps.subf r (FloatOps.mulf (lit 0x40200000#32) r0))

/-- The dispersion damping `0.85 + 0.82/(1 + e)`. -/
def cso (r r0 : E) : E :=
  FloatOps.addf (lit 0x3F59999A#32) (FloatOps.divf (lit 0x3F51EB85#32) (FloatOps.addf one (ee r r0)))

/-- The dispersion energy of an edge, the negation written `0 − c6`. -/
def edisp (r c6 r0 : E) : E :=
  FloatOps.addf (FloatOps.mulf (FloatOps.divf (FloatOps.subf zero c6) (r6 r)) (cso r r0)) (FloatOps.divf c6 (lit 0x49742400#32))

/-- The dispersion force scale of an edge: the force's magnitude over `r`. -/
def fds (r c6 r0 : E) : E :=
  FloatOps.divf
    (FloatOps.subf
      (FloatOps.mulf
        (FloatOps.divf
          (FloatOps.mulf (FloatOps.mulf (lit 0xC0C00000#32) c6) (FloatOps.mulf r (FloatOps.mulf (FloatOps.mulf r r) (FloatOps.mulf r r))))
          (FloatOps.mulf (r6 r) (r6 r)))
        (cso r r0))
      (FloatOps.mulf (FloatOps.divf c6 (r6 r))
        (FloatOps.divf (FloatOps.mulf (lit 0x3F51EB85#32) (ee r r0))
          (FloatOps.mulf (FloatOps.addf one (ee r r0)) (FloatOps.addf one (ee r r0))))))
    r

end Cert.EdgeSpec

end
-- ==== Proof.KernelValue.lean ====
/-
  The kernel's four output arrays after the region, as whole-array functions of the four padded input arrays.

  The body is elementwise: position `y` of each stored block is one of the four edge formulas of the loaded blocks at
  `y`. All eight windows use the same block index (the grid point), so block `t` of an output is that formula of blocks
  `t` of the inputs, and the 31 blocks tile the padded length 31 · 131072 = 4063232: each output array is the formula
  applied entry by entry to the padded input arrays.
-/
import proofs.«156834_j37752762532668_2_alg».proof.Proof.FrameIdeal
import proofs.«156834_j37752762532668_2_alg».proof.Proof.EdgeSpec
import Idealize.ShloMosaic.Lib.Pipeline.Value
import Idealize.ShloMosaic.Lib.ValueIdx

set_option maxRecDepth 16384

noncomputable section

namespace Cert.KernelIdeal.EdgeValue

open Cert.KernelIdeal Cert.KernelIdeal.Gen Cert.KernelIdeal.Edge Cert.EdgeSpec
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The stored values at a position -/

/-- The Coulomb energy block at position `y` is `ecoul` of the distance and charge-product blocks at `y`. -/
theorem stored4_apply (x0 x1 : Vec Ideal S131072 .f32) (y : S131072.Idx) : stored4 x0 x1 y = ecoul (x0 y) (x1 y) := by
  simp only [stored4, k0_pay11, k0_pay10, k0_pay9, k0_pay8, k0_pay7, k0_pay6, k0_pay4, k0_pay1, shapeCast_self]
  rfl

/-- The dispersion energy block at `y` is `edisp` of the distance, coefficient and radius blocks at `y`. -/
theorem stored5_apply (x0 x2 x3 : Vec Ideal S131072 .f32) (y : S131072.Idx) : stored5 x0 x2 x3 y = edisp (x0 y) (x2 y) (x3 y) := by
  simp only [stored5, k0_pay18, k0_pay16, k0_pay15, k0_pay14, k0_pay13, k0_pay3, k0_pay2, k0_pay1, shapeCast_self]
  rfl

/-- The Coulomb force-scale block at `y` is `fcs` of the distance and charge-product blocks at `y`. -/
theorem stored6_apply (x0 x1 : Vec Ideal S131072 .f32) (y : S131072.Idx) : stored6 x0 x1 y = fcs (x0 y) (x1 y) := by
  simp only [stored6, k0_pay12, k0_pay10, k0_pay9, k0_pay8, k0_pay6, k0_pay5, k0_pay4, k0_pay1, shapeCast_self]
  rfl

/-- The dispersion force-scale block at `y` is `fds` of the distance, coefficient and radius blocks at `y`. -/
theorem stored7_apply (x0 x2 x3 : Vec Ideal S131072 .f32) (y : S131072.Idx) : stored7 x0 x2 x3 y = fds (x0 y) (x2 y) (x3 y) := by
  simp only [stored7, k0_pay17, k0_pay16, k0_pay15, k0_pay14, k0_pay13, k0_pay3, k0_pay2, k0_pay1, shapeCast_self]
  rfl

/-! ## The windows' block indices -/

/-- Every window's block index at a point is the point's own coordinate, which is below 31. -/
theorem idx_facts : ∀ t : Fin cfg0.N, win0_0.index t (0 : Fin 1) = win0_4.index t (0 : Fin 1)
    ∧ win0_1.index t (0 : Fin 1) = win0_4.index t (0 : Fin 1)
    ∧ win0_2.index t (0 : Fin 1) = win0_4.index t (0 : Fin 1)
    ∧ win0_3.index t (0 : Fin 1) = win0_4.index t (0 : Fin 1)
    ∧ win0_5.index t (0 : Fin 1) = win0_4.index t (0 : Fin 1)
    ∧ win0_6.index t (0 : Fin 1) = win0_4.index t (0 : Fin 1)
    ∧ win0_7.index t (0 : Fin 1) = win0_4.index t (0 : Fin 1)
    ∧ win0_4.index t (0 : Fin 1) ≤ 30 :=
  (by decide +kernel : ∀ t : Fin grid0.N, _)

/-- Every block is some point's. -/
theorem idx_onto : ∀ q : Fin 31, ∃ t : Fin cfg0.N, win0_4.index t = ![q.val] :=
  (by decide +kernel : ∀ q : Fin 31, ∃ t : Fin grid0.N, win0_4.index t = ![q.val])

/-! ## Blocks of different windows at one point sit at the same place -/

theorem emb_0_4 (t : Fin cfg0.N) (j : S131072.Idx) : ((cfg0.win 0).blk t).view.emb j = ((cfg0.win 4).blk t).view.emb j := by
  obtain ⟨e0, e1, e2, e3, e5, e6, e7, hle⟩ := idx_facts t
  funext a; apply Fin.ext
  match a with
  | ⟨0, _⟩ => show win0_0.index t (0 : Fin 1) * 131072 + 1 * (j 0).val = win0_4.index t (0 : Fin 1) * 131072 + 1 * (j 0).val; omega

theorem emb_1_4 (t : Fin cfg0.N) (j : S131072.Idx) : ((cfg0.win 1).blk t).view.emb j = ((cfg0.win 4).blk t).view.emb j := by
  obtain ⟨e0, e1, e2, e3, e5, e6, e7, hle⟩ := idx_facts t
  funext a; apply Fin.ext
  match a with
  | ⟨0, _⟩ => show win0_1.index t (0 : Fin 1) * 131072 + 1 * (j 0).val = win0_4.index t (0 : Fin 1) * 131072 + 1 * (j 0).val; omega

theorem emb_0_5 (t : Fin cfg0.N) (j : S131072.Idx) : ((cfg0.win 0).blk t).view.emb j = ((cfg0.win 5).blk t).view.emb j := by
  obtain ⟨e0, e1, e2, e3, e5, e6, e7, hle⟩ := idx_facts t
  funext a; apply Fin.ext
  match a with
  | ⟨0, _⟩ => show win0_0.index t (0 : Fin 1) * 131072 + 1 * (j 0).val = win0_5.index t (0 : Fin 1) * 131072 + 1 * (j 0).val; omega

theorem emb_2_5 (t : Fin cfg0.N) (j : S131072.Idx) : ((cfg0.win 2).blk t).view.emb j = ((cfg0.win 5).blk t).view.emb j := by
  obtain ⟨e0, e1, e2, e3, e5, e6, e7, hle⟩ := idx_facts t
  funext a; apply Fin.ext
  match a with
  | ⟨0, _⟩ => show win0_2.index t (0 : Fin 1) * 131072 + 1 * (j 0).val = win0_5.index t (0 : Fin 1) * 131072 + 1 * (j 0).val; omega

theorem emb_3_5 (t : Fin cfg0.N) (j : S131072.Idx) : ((cfg0.win 3).blk t).view.emb j = ((cfg0.win 5).blk t).view.emb j := by
  obtain ⟨e0, e1, e2, e3, e5, e6, e7, hle⟩ := idx_facts t
  funext a; apply Fin.ext
  match a with
  | ⟨0, _⟩ => show win0_3.index t (0 : Fin 1) * 131072 + 1 * (j 0).val = win0_5.index t (0 : Fin 1) * 131072 + 1 * (j 0).val; omega

theorem emb_0_6 (t : Fin cfg0.N) (j : S131072.Idx) : ((cfg0.win 0).blk t).view.emb j = ((cfg0.win 6).blk t).view.emb j := by
  obtain ⟨e0, e1, e2, e3, e5, e6, e7, hle⟩ := idx_facts t
  funext a; apply Fin.ext
  match a with
  | ⟨0, _⟩ => show win0_0.index t (0 : Fin 1) * 131072 + 1 * (j 0).val = win0_6.index t (0 : Fin 1) * 131072 + 1 * (j 0).val; omega

theorem emb_1_6 (t : Fin cfg0.N) (j : S131072.Idx) : ((cfg0.win 1).blk t).view.emb j = ((cfg0.win 6).blk t).view.emb j := by
  obtain ⟨e0, e1, e2, e3, e5, e6, e7, hle⟩ := idx_facts t
  funext a; apply Fin.ext
  match a with
  | ⟨0, _⟩ => show win0_1.index t (0 : Fin 1) * 131072 + 1 * (j 0).val = win0_6.index t (0 : Fin 1) * 131072 + 1 * (j 0).val; omega

theorem emb_0_7 (t : Fin cfg0.N) (j : S131072.Idx) : ((cfg0.win 0).blk t).view.emb j = ((cfg0.win 7).blk t).view.emb j := by
  obtain ⟨e0, e1, e2, e3, e5, e6, e7, hle⟩ := idx_facts t
  funext a; apply Fin.ext
  match a with
  | ⟨0, _⟩ => show win0_0.index t (0 : Fin 1) * 131072 + 1 * (j 0).val = win0_7.index t (0 : Fin 1) * 131072 + 1 * (j 0).val; omega

theorem emb_2_7 (t : Fin cfg0.N) (j : S131072.Idx) : ((cfg0.win 2).blk t).view.emb j = ((cfg0.win 7).blk t).view.emb j := by
  obtain ⟨e0, e1, e2, e3, e5, e6, e7, hle⟩ := idx_facts t
  funext a; apply Fin.ext
  match a with
  | ⟨0, _⟩ => show win0_2.index t (0 : Fin 1) * 131072 + 1 * (j 0).val = win0_7.index t (0 : Fin 1) * 131072 + 1 * (j 0).val; omega

theorem emb_3_7 (t : Fin cfg0.N) (j : S131072.Idx) : ((cfg0.win 3).blk t).view.emb j = ((cfg0.win 7).blk t).view.emb j := by
  obtain ⟨e0, e1, e2, e3, e5, e6, e7, hle⟩ := idx_facts t
  funext a; apply Fin.ext
  match a with
  | ⟨0, _⟩ => show win0_3.index t (0 : Fin 1) * 131072 + 1 * (j 0).val = win0_7.index t (0 : Fin 1) * 131072 + 1 * (j 0).val; omega

/-! ## Output window 4 -/

/-- What output array 4 ends holding: the edge formula `ecoul` of the padded input arrays, entry by entry. -/
def G4 (a0 : S4063232.Idx → E) (a1 : S4063232.Idx → E) : S4063232.Idx → E := fun i => ecoul (a0 i) (a1 i)

set_option maxHeartbeats 1000000 in
/-- What point `t` writes back is block `t` of that function of the padded inputs as the region finds them: an output
    entry depends on the input entries at the same position only, and all windows sit on the same block. -/
theorem flushed4_eq (c : Dev nD) (t : Fin cfg0.N) :
    (dats m 0 c).flushed 4 t = ((cfg0.win 4).blk t).view.read (Elt Ideal) (G4 (V m c main_v39) (V m c main_v40)) := by
  show (cfg0.win 4).cut (grid0.coords t) ((dats m 0 c).after 4 t) = _
  rw [after4]
  unfold out4
  rw [View.canon_unit_zero hz]
  simp only [View.ld_unit_zero (S := S131072) hz]
  funext j
  refine (stored4_apply (iblk m c 0 t) (iblk m c 1 t) j).trans ?_
  show ecoul (V m c main_v39 (((cfg0.win 0).blk t).view.emb j)) (V m c main_v40 (((cfg0.win 1).blk t).view.emb j)) = ecoul (V m c main_v39 (((cfg0.win 4).blk t).view.emb j)) (V m c main_v40 (((cfg0.win 4).blk t).view.emb j))
  rw [emb_0_4 t j, emb_1_4 t j]

/-- An index of the array is in point `t`'s block iff it lies in that block's range. -/
theorem mem_blk4 (t : Fin cfg0.N) (i : S4063232.Idx) :
    i ∈ ((cfg0.win 4).blk t).view.set ↔ ∀ a : Fin 1, win0_4.index t a * S131072.size a ≤ (i a).val ∧ (i a).val < win0_4.index t a * S131072.size a + S131072.size a := by
  show i ∈ ((View.whole main_v43_0).slice (win0_4.rect t)).set ↔ _
  rw [View.set_slice_whole, Rect.mem_set_unit]
  exact Iff.rfl

/-- The 31 blocks of 131072 entries tile the 4063232 entries: entry `i` is in block `i / 131072`. -/
theorem cover4 (i : S4063232.Idx) : ∃ t : Fin cfg0.N, (cfg0.win 4).flush t = true ∧ i ∈ ((cfg0.win 4).blk t).view.set := by
  have hi : (i 0).val < 4063232 := (i 0).isLt
  obtain ⟨t, ht⟩ := idx_onto ⟨(i 0).val / 131072, by omega⟩
  obtain ⟨e0, e1, e2, e3, e5, e6, e7, hle⟩ := idx_facts t
  have q0 : win0_4.index t (0 : Fin 1) = (i 0).val / 131072 := congrFun ht 0
  refine ⟨t, flush0_4 t, ?_⟩
  rw [mem_blk4]
  intro a
  match a with
  | ⟨0, _⟩ => show win0_4.index t (0 : Fin 1) * 131072 ≤ (i 0).val ∧ (i 0).val < win0_4.index t (0 : Fin 1) * 131072 + 131072; omega

/-- The whole array after the region. -/
theorem final4 (c : Dev nD) : (dats m 0 c).arrAt 4 cfg0.N = G4 (V m c main_v39) (V m c main_v40) :=
  (dats m 0 c).arrAt_eq_of_cover 4 _ (fun t _ => flushed4_eq m c t) cover4

/-! ## Output window 5 -/

/-- What output array 5 ends holding: the edge formula `edisp` of the padded input arrays, entry by entry. -/
def G5 (a0 : S4063232.Idx → E) (a2 : S4063232.Idx → E) (a3 : S4063232.Idx → E) : S4063232.Idx → E := fun i => edisp (a0 i) (a2 i) (a3 i)

set_option maxHeartbeats 1000000 in
/-- What point `t` writes back is block `t` of that function of the padded inputs as the region finds them: an output
    entry depends on the input entries at the same position only, and all windows sit on the same block. -/
theorem flushed5_eq (c : Dev nD) (t : Fin cfg0.N) :
    (dats m 0 c).flushed 5 t = ((cfg0.win 5).blk t).view.read (Elt Ideal) (G5 (V m c main_v39) (V m c main_v41) (V m c main_v42)) := by
  show (cfg0.win 5).cut (grid0.coords t) ((dats m 0 c).after 5 t) = _
  rw [after5]
  unfold out5
  rw [View.canon_unit_zero hz]
  simp only [View.ld_unit_zero (S := S131072) hz]
  funext j
  refine (stored5_apply (iblk m c 0 t) (iblk m c 2 t) (iblk m c 3 t) j).trans ?_
  show edisp (V m c main_v39 (((cfg0.win 0).blk t).view.emb j)) (V m c main_v41 (((cfg0.win 2).blk t).view.emb j)) (V m c main_v42 (((cfg0.win 3).blk t).view.emb j)) = edisp (V m c main_v39 (((cfg0.win 5).blk t).view.emb j)) (V m c main_v41 (((cfg0.win 5).blk t).view.emb j)) (V m c main_v42 (((cfg0.win 5).blk t).view.emb j))
  rw [emb_0_5 t j, emb_2_5 t j, emb_3_5 t j]

/-- An index of the array is in point `t`'s block iff it lies in that block's range. -/
theorem mem_blk5 (t : Fin cfg0.N) (i : S4063232.Idx) :
    i ∈ ((cfg0.win 5).blk t).view.set ↔ ∀ a : Fin 1, win0_5.index t a * S131072.size a ≤ (i a).val ∧ (i a).val < win0_5.index t a * S131072.size a + S131072.size a := by
  show i ∈ ((View.whole main_v43_1).slice (win0_5.rect t)).set ↔ _
  rw [View.set_slice_whole, Rect.mem_set_unit]
  exact Iff.rfl

/-- The 31 blocks of 131072 entries tile the 4063232 entries: entry `i` is in block `i / 131072`. -/
theorem cover5 (i : S4063232.Idx) : ∃ t : Fin cfg0.N, (cfg0.win 5).flush t = true ∧ i ∈ ((cfg0.win 5).blk t).view.set := by
  have hi : (i 0).val < 4063232 := (i 0).isLt
  obtain ⟨t, ht⟩ := idx_onto ⟨(i 0).val / 131072, by omega⟩
  obtain ⟨e0, e1, e2, e3, e5, e6, e7, hle⟩ := idx_facts t
  have q0 : win0_4.index t (0 : Fin 1) = (i 0).val / 131072 := congrFun ht 0
  refine ⟨t, flush0_5 t, ?_⟩
  rw [mem_blk5]
  intro a
  match a with
  | ⟨0, _⟩ => show win0_5.index t (0 : Fin 1) * 131072 ≤ (i 0).val ∧ (i 0).val < win0_5.index t (0 : Fin 1) * 131072 + 131072; omega

/-- The whole array after the region. -/
theorem final5 (c : Dev nD) : (dats m 0 c).arrAt 5 cfg0.N = G5 (V m c main_v39) (V m c main_v41) (V m c main_v42) :=
  (dats m 0 c).arrAt_eq_of_cover 5 _ (fun t _ => flushed5_eq m c t) cover5

/-! ## Output window 6 -/

/-- What output array 6 ends holding: the edge formula `fcs` of the padded input arrays, entry by entry. -/
def G6 (a0 : S4063232.Idx → E) (a1 : S4063232.Idx → E) : S4063232.Idx → E := fun i => fcs (a0 i) (a1 i)

set_option maxHeartbeats 1000000 in
/-- What point `t` writes back is block `t` of that function of the padded inputs as the region finds them: an output
    entry depends on the input entries at the same position only, and all windows sit on the same block. -/
theorem flushed6_eq (c : Dev nD) (t : Fin cfg0.N) :
    (dats m 0 c).flushed 6 t = ((cfg0.win 6).blk t).view.read (Elt Ideal) (G6 (V m c main_v39) (V m c main_v40)) := by
  show (cfg0.win 6).cut (grid0.coords t) ((dats m 0 c).after 6 t) = _
  rw [after6]
  unfold out6
  rw [View.canon_unit_zero hz]
  simp only [View.ld_unit_zero (S := S131072) hz]
  funext j
  refine (stored6_apply (iblk m c 0 t) (iblk m c 1 t) j).trans ?_
  show fcs (V m c main_v39 (((cfg0.win 0).blk t).view.emb j)) (V m c main_v40 (((cfg0.win 1).blk t).view.emb j)) = fcs (V m c main_v39 (((cfg0.win 6).blk t).view.emb j)) (V m c main_v40 (((cfg0.win 6).blk t).view.emb j))
  rw [emb_0_6 t j, emb_1_6 t j]

/-- An index of the array is in point `t`'s block iff it lies in that block's range. -/
theorem mem_blk6 (t : Fin cfg0.N) (i : S4063232.Idx) :
    i ∈ ((cfg0.win 6).blk t).view.set ↔ ∀ a : Fin 1, win0_6.index t a * S131072.size a ≤ (i a).val ∧ (i a).val < win0_6.index t a * S131072.size a + S131072.size a := by
  show i ∈ ((View.whole main_v43_2).slice (win0_6.rect t)).set ↔ _
  rw [View.set_slice_whole, Rect.mem_set_unit]
  exact Iff.rfl

/-- The 31 blocks of 131072 entries tile the 4063232 entries: entry `i` is in block `i / 131072`. -/
theorem cover6 (i : S4063232.Idx) : ∃ t : Fin cfg0.N, (cfg0.win 6).flush t = true ∧ i ∈ ((cfg0.win 6).blk t).view.set := by
  have hi : (i 0).val < 4063232 := (i 0).isLt
  obtain ⟨t, ht⟩ := idx_onto ⟨(i 0).val / 131072, by omega⟩
  obtain ⟨e0, e1, e2, e3, e5, e6, e7, hle⟩ := idx_facts t
  have q0 : win0_4.index t (0 : Fin 1) = (i 0).val / 131072 := congrFun ht 0
  refine ⟨t, flush0_6 t, ?_⟩
  rw [mem_blk6]
  intro a
  match a with
  | ⟨0, _⟩ => show win0_6.index t (0 : Fin 1) * 131072 ≤ (i 0).val ∧ (i 0).val < win0_6.index t (0 : Fin 1) * 131072 + 131072; omega

/-- The whole array after the region. -/
theorem final6 (c : Dev nD) : (dats m 0 c).arrAt 6 cfg0.N = G6 (V m c main_v39) (V m c main_v40) :=
  (dats m 0 c).arrAt_eq_of_cover 6 _ (fun t _ => flushed6_eq m c t) cover6

/-! ## Output window 7 -/

/-- What output array 7 ends holding: the edge formula `fds` of the padded input arrays, entry by entry. -/
def G7 (a0 : S4063232.Idx → E) (a2 : S4063232.Idx → E) (a3 : S4063232.Idx → E) : S4063232.Idx → E := fun i => fds (a0 i) (a2 i) (a3 i)

set_option maxHeartbeats 1000000 in
/-- What point `t` writes back is block `t` of that function of the padded inputs as the region finds them: an output
    entry depends on the input entries at the same position only, and all windows sit on the same block. -/
theorem flushed7_eq (c : Dev nD) (t : Fin cfg0.N) :
    (dats m 0 c).flushed 7 t = ((cfg0.win 7).blk t).view.read (Elt Ideal) (G7 (V m c main_v39) (V m c main_v41) (V m c main_v42)) := by
  show (cfg0.win 7).cut (grid0.coords t) ((dats m 0 c).after 7 t) = _
  rw [after7]
  unfold out7
  rw [View.canon_unit_zero hz]
  simp only [View.ld_unit_zero (S := S131072) hz]
  funext j
  refine (stored7_apply (iblk m c 0 t) (iblk m c 2 t) (iblk m c 3 t) j).trans ?_
  show fds (V m c main_v39 (((cfg0.win 0).blk t).view.emb j)) (V m c main_v41 (((cfg0.win 2).blk t).view.emb j)) (V m c main_v42 (((cfg0.win 3).blk t).view.emb j)) = fds (V m c main_v39 (((cfg0.win 7).blk t).view.emb j)) (V m c main_v41 (((cfg0.win 7).blk t).view.emb j)) (V m c main_v42 (((cfg0.win 7).blk t).view.emb j))
  rw [emb_0_7 t j, emb_2_7 t j, emb_3_7 t j]

/-- An index of the array is in point `t`'s block iff it lies in that block's range. -/
theorem mem_blk7 (t : Fin cfg0.N) (i : S4063232.Idx) :
    i ∈ ((cfg0.win 7).blk t).view.set ↔ ∀ a : Fin 1, win0_7.index t a * S131072.size a ≤ (i a).val ∧ (i a).val < win0_7.index t a * S131072.size a + S131072.size a := by
  show i ∈ ((View.whole main_v43_3).slice (win0_7.rect t)).set ↔ _
  rw [View.set_slice_whole, Rect.mem_set_unit]
  exact Iff.rfl

/-- The 31 blocks of 131072 entries tile the 4063232 entries: entry `i` is in block `i / 131072`. -/
theorem cover7 (i : S4063232.Idx) : ∃ t : Fin cfg0.N, (cfg0.win 7).flush t = true ∧ i ∈ ((cfg0.win 7).blk t).view.set := by
  have hi : (i 0).val < 4063232 := (i 0).isLt
  obtain ⟨t, ht⟩ := idx_onto ⟨(i 0).val / 131072, by omega⟩
  obtain ⟨e0, e1, e2, e3, e5, e6, e7, hle⟩ := idx_facts t
  have q0 : win0_4.index t (0 : Fin 1) = (i 0).val / 131072 := congrFun ht 0
  refine ⟨t, flush0_7 t, ?_⟩
  rw [mem_blk7]
  intro a
  match a with
  | ⟨0, _⟩ => show win0_7.index t (0 : Fin 1) * 131072 ≤ (i 0).val ∧ (i 0).val < win0_7.index t (0 : Fin 1) * 131072 + 131072; omega

/-- The whole array after the region. -/
theorem final7 (c : Dev nD) : (dats m 0 c).arrAt 7 cfg0.N = G7 (V m c main_v39) (V m c main_v41) (V m c main_v42) :=
  (dats m 0 c).arrAt_eq_of_cover 7 _ (fun t _ => flushed7_eq m c t) cover7

end Cert.KernelIdeal.EdgeValue

end
-- ==== Proof.HostGlue.lean ====
/-
  The host operations before the region, read back: what the four padded input arrays hold when the region is entered.

  The distance of an edge is the square root of the sum of the squares of its three displacement components. The three
  per-atom vectors are packed as the columns of one [200000, 3] table; the rows of the table are gathered once at the
  (wrapped) source indices and once at the target indices; the charge product is the product of the two gathered first
  columns, the dispersion coefficient the square root of the product of the second columns, the radius half the sum of the
  third columns. Each of the four vectors is then padded at the end, from 4000000 to 4063232 entries, with a constant.
-/
import proofs.«156834_j37752762532668_2_alg».proof.Proof.FrameIdeal
import Idealize.ShloMosaic.Lib.StableHlo.Run
import Idealize.ShloMosaic.PureOps.Ideal

set_option maxRecDepth 16384

noncomputable section

namespace Cert.KernelIdeal.EdgeHost

open Cert.KernelIdeal Cert.KernelIdeal.Gen Cert.KernelIdeal.Edge
open Idealize.ShloMosaic Idealize.ShloMosaic.TcCoe Idealize.SL.Sem Idealize.ShloMosaic.StableHlo

/-! ## The host-side functions -/

/-- The edge lengths: square root of the row sums of the squared displacements. -/
def rijH (a2 : FVec Ideal S4000000x3 .f32) : FVec Ideal S4000000 .f32 :=
  Host.sqrt (Host.reduceAdd (mulf a2 a2) (constant S_ .f32 0x00000000#32) reducesTo_S4000000x3_S4000000_d1 h_S_)

/-- The packed table: the three per-atom vectors as the three columns of one matrix. -/
def tableH (a3 a4 a5 : FVec Ideal S200000 .f32) : FVec Ideal S200000x3 .f32 :=
  concatenate S200000x3 1
    [⟨S200000x1, broadcastInDim S200000x1 ![0] bcast_S200000_S200000x1_0 a3⟩,
     ⟨S200000x1, broadcastInDim S200000x1 ![0] bcast_S200000_S200000x1_0 a4⟩,
     ⟨S200000x1, broadcastInDim S200000x1 ![0] bcast_S200000_S200000x1_0 a5⟩]
    concatenates_S200000x1_S200000x1_S200000x1_S200000x3_d1

/-- The start indices of a gather: a negative index wrapped by the table's height, as a column. -/
def idxH (a : IVec S4000000 32) : IVec S4000000x1 32 :=
  broadcastInDim S4000000x1 ![0] bcast_S4000000_S4000000x1_0
    (select (cmpi .slt a (broadcastInDim S4000000 ![] bcast_S_S4000000 (constantI S_ 32 0#32)))
      (addi a (broadcastInDim S4000000 ![] bcast_S_S4000000 (constantI S_ 32 200000#32))) a)

/-- A table's rows gathered at an index vector. -/
def gatT (T : FVec Ideal S200000x3 .f32) (a : IVec S4000000 32) : FVec Ideal S4000000x3 .f32 :=
  Host.gather gather_S200000x3_S4000000x1_S4000000x3_1_0_n_n_0_1_13 T (idxH a)

/-- Column 0, 1, 2 of a gathered matrix, as a vector. -/
def col0H (g : FVec Ideal S4000000x3 .f32) : FVec Ideal S4000000 .f32 :=
  shapeCast S4000000 (extractStridedSlice S4000000x1 ![0, 0] g slices_S4000000x3_S4000000x1_0_0) shapeCasts_S4000000x1_S4000000
def col1H (g : FVec Ideal S4000000x3 .f32) : FVec Ideal S4000000 .f32 :=
  shapeCast S4000000 (extractStridedSlice S4000000x1 ![0, 1] g slices_S4000000x3_S4000000x1_0_1) shapeCasts_S4000000x1_S4000000
def col2H (g : FVec Ideal S4000000x3 .f32) : FVec Ideal S4000000 .f32 :=
  shapeCast S4000000 (extractStridedSlice S4000000x1 ![0, 2] g slices_S4000000x3_S4000000x1_0_2) shapeCasts_S4000000x1_S4000000

/-- The charge products, the dispersion coefficients and the radii of the edges, from a table and the two index vectors. -/
def prodqT (T : FVec Ideal S200000x3 .f32) (a0 a1 : IVec S4000000 32) : FVec Ideal S4000000 .f32 :=
  mulf (col0H (gatT T a0)) (col0H (gatT T a1))
def c6T (T : FVec Ideal S200000x3 .f32) (a0 a1 : IVec S4000000 32) : FVec Ideal S4000000 .f32 :=
  Host.sqrt (mulf (col1H (gatT T a0)) (col1H (gatT T a1)))
def r0T (T : FVec Ideal S200000x3 .f32) (a0 a1 : IVec S4000000 32) : FVec Ideal S4000000 .f32 :=
  mulf (broadcastInDim S4000000 ![] bcast_S_S4000000 (constant S_ .f32 0x3F000000#32))
    (addf (col2H (gatT T a0)) (col2H (gatT T a1)))

/-- A vector of 4000000 entries padded at the end to 4063232 with the scalar `v`. -/
def padV (x : FVec Ideal S4000000 .f32) (v : FVec Ideal S_ .f32) : FVec Ideal S4063232 .f32 :=
  pad S4063232 ![0] ![63232] ![0] x v pads_S4000000_S4063232_0632320 h_S_

/-- The same with the value of the word `w`. -/
def padH (x : FVec Ideal S4000000 .f32) (w : BitVec 32) : FVec Ideal S4063232 .f32 :=
  padV x (constant S_ .f32 w)

variable (m : (ℓ : Loc nD τ sig) → Buf (Elt Ideal) ℓ)

/-- The arguments as the launch has them. -/
abbrev A0 (c : Dev nD) : IVec S4000000 32 := m (c, Proc.tc.devRef main_arg0)
abbrev A1 (c : Dev nD) : IVec S4000000 32 := m (c, Proc.tc.devRef main_arg1)
abbrev A2 (c : Dev nD) : FVec Ideal S4000000x3 .f32 := m (c, Proc.tc.devRef main_arg2)
abbrev A3 (c : Dev nD) : FVec Ideal S200000 .f32 := m (c, Proc.tc.devRef main_arg3)
abbrev A4 (c : Dev nD) : FVec Ideal S200000 .f32 := m (c, Proc.tc.devRef main_arg4)
abbrev A5 (c : Dev nD) : FVec Ideal S200000 .f32 := m (c, Proc.tc.devRef main_arg5)

/-- The three per-edge vectors from the three per-atom vectors. -/
def prodqH (a0 a1 : IVec S4000000 32) (a3 a4 a5 : FVec Ideal S200000 .f32) : FVec Ideal S4000000 .f32 := prodqT (tableH a3 a4 a5) a0 a1
def c6H (a0 a1 : IVec S4000000 32) (a3 a4 a5 : FVec Ideal S200000 .f32) : FVec Ideal S4000000 .f32 := c6T (tableH a3 a4 a5) a0 a1
def r0H (a0 a1 : IVec S4000000 32) (a3 a4 a5 : FVec Ideal S200000 .f32) : FVec Ideal S4000000 .f32 := r0T (tableH a3 a4 a5) a0 a1

/-! ## The operations before the region, in three stages

The first eight operations compute the lengths and pack the table from the launch contents; the next thirty-eight gather
and combine, reading only the table, the two index vectors and the lengths; the last eleven pad. The later two stages are
read over arbitrary contents, so that each statement stays small. -/

abbrev ops1 : List (HloOp τ sig (Elt Ideal)) := List.take 8 hostOps0
abbrev ops2 : List (HloOp τ sig (Elt Ideal)) := List.drop 8 hostOps0
abbrev ops3 : List (HloOp τ sig (Elt Ideal)) := List.flatten [hostOps0_1, hostOps0_2, hostOps0_3, hostOps0_4, hostOps0_5, hostOps0_6, hostOps0_7]

theorem prefix_split : (List.flatten [hostOps0, hostOps0_1, hostOps0_2, hostOps0_3, hostOps0_4, hostOps0_5, hostOps0_6, hostOps0_7] : List (HloOp τ sig (Elt Ideal))) = ops1 ++ (ops2 ++ ops3) := by
  show (hostOps0 : List (HloOp τ sig (Elt Ideal))) ++ ops3 = _
  rw [← List.append_assoc, List.take_append_drop]

theorem V0_split (c : Dev nD) : V0 m c = StableHlo.after ops3 (StableHlo.after ops2 (StableHlo.after ops1 (fun b => m (c, b)))) := by
  show StableHlo.after (List.flatten [hostOps0, hostOps0_1, hostOps0_2, hostOps0_3, hostOps0_4, hostOps0_5, hostOps0_6, hostOps0_7]) _ = _
  rw [prefix_split, StableHlo.after_append, StableHlo.after_append]

set_option maxHeartbeats 2000000 in
/-- Stage one leaves the packed table, -/
theorem s1_v6 (c : Dev nD) :
    (StableHlo.after ops1 (fun b => m (c, b)) (Proc.devRef .tc main_v6) : S200000x3.Idx → Ideal .f32) = tableH (A3 m c) (A4 m c) (A5 m c) := by
  simp only [ops1, hostOps0, List.take_succ_cons, List.take_zero]
  after_results_simp
  try simp only [Matrix.cons_val_zero, Matrix.cons_val_one, Matrix.cons_val_two, Matrix.head_cons, Matrix.tail_cons]
  try after_results_simp
  all_goals rfl

set_option maxHeartbeats 2000000 in
/-- the lengths, -/
theorem s1_v2 (c : Dev nD) :
    (StableHlo.after ops1 (fun b => m (c, b)) (Proc.devRef .tc main_v2) : S4000000.Idx → Ideal .f32) = rijH (A2 m c) := by
  simp only [ops1, hostOps0, List.take_succ_cons, List.take_zero]
  after_results_simp
  try simp only [Matrix.cons_val_zero, Matrix.cons_val_one, Matrix.cons_val_two, Matrix.head_cons, Matrix.tail_cons]
  try after_results_simp
  all_goals rfl

set_option maxHeartbeats 2000000 in
/-- and the two index vectors as launched. -/
theorem s1_arg0 (c : Dev nD) :
    (StableHlo.after ops1 (fun b => m (c, b)) (Proc.devRef .tc main_arg0) : S4000000.Idx → BitVec 32) = A0 m c := by
  simp only [ops1, hostOps0, List.take_succ_cons, List.take_zero]
  after_results_simp
  try simp only [Matrix.cons_val_zero, Matrix.cons_val_one, Matrix.cons_val_two, Matrix.head_cons, Matrix.tail_cons]
  try after_results_simp
  all_goals rfl

set_option maxHeartbeats 2000000 in
/-- (the second index vector) -/
theorem s1_arg1 (c : Dev nD) :
    (StableHlo.after ops1 (fun b => m (c, b)) (Proc.devRef .tc main_arg1) : S4000000.Idx → BitVec 32) = A1 m c := by
  simp only [ops1, hostOps0, List.take_succ_cons, List.take_zero]
  after_results_simp
  try simp only [Matrix.cons_val_zero, Matrix.cons_val_one, Matrix.cons_val_two, Matrix.head_cons, Matrix.tail_cons]
  try after_results_simp
  all_goals rfl

set_option maxHeartbeats 2000000 in
/-- Stage two leaves the charge products, -/
theorem s2_v25 (W : Valuation τ sig (Elt Ideal)) :
    (StableHlo.after ops2 W (Proc.devRef .tc main_v25) : S4000000.Idx → Ideal .f32) = prodqT (W (Proc.devRef .tc main_v6)) (W (Proc.devRef .tc main_arg0)) (W (Proc.devRef .tc main_arg1)) := by
  simp only [ops2, hostOps0, List.drop_succ_cons, List.drop_zero]
  after_results_simp
  try simp only [Matrix.cons_val_zero, Matrix.cons_val_one, Matrix.cons_val_two, Matrix.head_cons, Matrix.tail_cons]
  try after_results_simp
  all_goals rfl

set_option maxHeartbeats 2000000 in
/-- the dispersion coefficients, -/
theorem s2_v31 (W : Valuation τ sig (Elt Ideal)) :
    (StableHlo.after ops2 W (Proc.devRef .tc main_v31) : S4000000.Idx → Ideal .f32) = c6T (W (Proc.devRef .tc main_v6)) (W (Proc.devRef .tc main_arg0)) (W (Proc.devRef .tc main_arg1)) := by
  simp only [ops2, hostOps0, List.drop_succ_cons, List.drop_zero]
  after_results_simp
  try simp only [Matrix.cons_val_zero, Matrix.cons_val_one, Matrix.cons_val_two, Matrix.head_cons, Matrix.tail_cons]
  try after_results_simp
  all_goals rfl

set_option maxHeartbeats 2000000 in
/-- the radii, -/
theorem s2_v38 (W : Valuation τ sig (Elt Ideal)) :
    (StableHlo.after ops2 W (Proc.devRef .tc main_v38) : S4000000.Idx → Ideal .f32) = r0T (W (Proc.devRef .tc main_v6)) (W (Proc.devRef .tc main_arg0)) (W (Proc.devRef .tc main_arg1)) := by
  simp only [ops2, hostOps0, List.drop_succ_cons, List.drop_zero]
  after_results_simp
  try simp only [Matrix.cons_val_zero, Matrix.cons_val_one, Matrix.cons_val_two, Matrix.head_cons, Matrix.tail_cons]
  try after_results_simp
  all_goals rfl

set_option maxHeartbeats 2000000 in
/-- the lengths as it found them, -/
theorem s2_v2 (W : Valuation τ sig (Elt Ideal)) :
    (StableHlo.after ops2 W (Proc.devRef .tc main_v2) : S4000000.Idx → Ideal .f32) = (W (Proc.devRef .tc main_v2)) := by
  simp only [ops2, hostOps0, List.drop_succ_cons, List.drop_zero]
  after_results_simp
  try simp only [Matrix.cons_val_zero, Matrix.cons_val_one, Matrix.cons_val_two, Matrix.head_cons, Matrix.tail_cons]
  try after_results_simp
  all_goals rfl

set_option maxHeartbeats 2000000 in
/-- and the constant one. -/
theorem s2_cst4 (W : Valuation τ sig (Elt Ideal)) :
    (StableHlo.after ops2 W (Proc.devRef .tc main_cst_4) : S_.Idx → Ideal .f32) = constant (F := Ideal) S_ .f32 0x3F800000#32 := by
  simp only [ops2, hostOps0, List.drop_succ_cons, List.drop_zero]
  after_results_simp
  try simp only [Matrix.cons_val_zero, Matrix.cons_val_one, Matrix.cons_val_two, Matrix.head_cons, Matrix.tail_cons]
  try after_results_simp
  all_goals rfl

set_option maxHeartbeats 2000000 in
/-- Stage three pads the lengths with the constant it finds, -/
theorem s3_v39 (W : Valuation τ sig (Elt Ideal)) :
    (StableHlo.after ops3 W (Proc.devRef .tc main_v39) : S4063232.Idx → Ideal .f32) = padV (W (Proc.devRef .tc main_v2)) (W (Proc.devRef .tc main_cst_4)) := by
  simp only [ops3, hostOps0_1, hostOps0_2, hostOps0_3, hostOps0_4, hostOps0_5, hostOps0_6, hostOps0_7, List.flatten_cons, List.flatten_nil, List.append_nil, List.cons_append, List.nil_append]
  after_results_simp
  try simp only [Matrix.cons_val_zero, Matrix.cons_val_one, Matrix.cons_val_two, Matrix.head_cons, Matrix.tail_cons]
  try after_results_simp
  all_goals rfl

set_option maxHeartbeats 2000000 in
/-- the charge products with zero, -/
theorem s3_v40 (W : Valuation τ sig (Elt Ideal)) :
    (StableHlo.after ops3 W (Proc.devRef .tc main_v40) : S4063232.Idx → Ideal .f32) = padV (W (Proc.devRef .tc main_v25)) (constant S_ .f32 0x00000000#32) := by
  simp only [ops3, hostOps0_1, hostOps0_2, hostOps0_3, hostOps0_4, hostOps0_5, hostOps0_6, hostOps0_7, List.flatten_cons, List.flatten_nil, List.append_nil, List.cons_append, List.nil_append]
  after_results_simp
  try simp only [Matrix.cons_val_zero, Matrix.cons_val_one, Matrix.cons_val_two, Matrix.head_cons, Matrix.tail_cons]
  try after_results_simp
  all_goals rfl

set_option maxHeartbeats 2000000 in
/-- the dispersion coefficients with one, -/
theorem s3_v41 (W : Valuation τ sig (Elt Ideal)) :
    (StableHlo.after ops3 W (Proc.devRef .tc main_v41) : S4063232.Idx → Ideal .f32) = padV (W (Proc.devRef .tc main_v31)) (constant S_ .f32 0x3F800000#32) := by
  simp only [ops3, hostOps0_1, hostOps0_2, hostOps0_3, hostOps0_4, hostOps0_5, hostOps0_6, hostOps0_7, List.flatten_cons, List.flatten_nil, List.append_nil, List.cons_append, List.nil_append]
  after_results_simp
  try simp only [Matrix.cons_val_zero, Matrix.cons_val_one, Matrix.cons_val_two, Matrix.head_cons, Matrix.tail_cons]
  try after_results_simp
  all_goals rfl

set_option maxHeartbeats 2000000 in
/-- and the radii with one. -/
theorem s3_v42 (W : Valuation τ sig (Elt Ideal)) :
    (StableHlo.after ops3 W (Proc.devRef .tc main_v42) : S4063232.Idx → Ideal .f32) = padV (W (Proc.devRef .tc main_v38)) (constant S_ .f32 0x3F800000#32) := by
  simp only [ops3, hostOps0_1, hostOps0_2, hostOps0_3, hostOps0_4, hostOps0_5, hostOps0_6, hostOps0_7, List.flatten_cons, List.flatten_nil, List.append_nil, List.cons_append, List.nil_append]
  after_results_simp
  try simp only [Matrix.cons_val_zero, Matrix.cons_val_one, Matrix.cons_val_two, Matrix.head_cons, Matrix.tail_cons]
  try after_results_simp
  all_goals rfl

/-! ## The four padded inputs when the region is entered -/

/-- The padded lengths, padded with 1. -/
theorem V_v39 (c : Dev nD) : (V m c main_v39 : S4063232.Idx → Ideal .f32) = padH (rijH (A2 m c)) 0x3F800000#32 := by
  refine (congrFun (V0_split m c) (Proc.devRef .tc main_v39)).trans ?_
  rw [s3_v39, s2_v2, s2_cst4, s1_v2]; rfl

/-- The padded charge products, padded with 0. -/
theorem V_v40 (c : Dev nD) : (V m c main_v40 : S4063232.Idx → Ideal .f32) = padH (prodqH (A0 m c) (A1 m c) (A3 m c) (A4 m c) (A5 m c)) 0x00000000#32 := by
  refine (congrFun (V0_split m c) (Proc.devRef .tc main_v40)).trans ?_
  rw [s3_v40, s2_v25, s1_v6, s1_arg0, s1_arg1]; rfl

/-- The padded dispersion coefficients, padded with 1. -/
theorem V_v41 (c : Dev nD) : (V m c main_v41 : S4063232.Idx → Ideal .f32) = padH (c6H (A0 m c) (A1 m c) (A3 m c) (A4 m c) (A5 m c)) 0x3F800000#32 := by
  refine (congrFun (V0_split m c) (Proc.devRef .tc main_v41)).trans ?_
  rw [s3_v41, s2_v31, s1_v6, s1_arg0, s1_arg1]; rfl

/-- The padded radii, padded with 1. -/
theorem V_v42 (c : Dev nD) : (V m c main_v42 : S4063232.Idx → Ideal .f32) = padH (r0H (A0 m c) (A1 m c) (A3 m c) (A4 m c) (A5 m c)) 0x3F800000#32 := by
  refine (congrFun (V0_split m c) (Proc.devRef .tc main_v42)).trans ?_
  rw [s3_v42, s2_v38, s1_v6, s1_arg0, s1_arg1]; rfl

end Cert.KernelIdeal.EdgeHost

end
-- ==== Proof.LibGatherRows.lean ====
/-
  A general lemma: `stablehlo.gather` of WHOLE ROWS of a rank-2 operand, read at an index.

  What `jnp.take(x, idx, axis = 0)` of a table `x : [N, C]` at an integer vector `idx : [R]` lowers to: a gather with
  offset_dims `[1]`, collapsed_slice_dims `[0]`, start_index_map `[0]`, index_vector_dim `1` and slice sizes `[1, C]`
  over the indices as a column `[R, 1]`. Result element `(t, d)` is `x` at row `idx[t, 0]` — read as a signed integer
  and clamped into `[0, N − 1]`, as the gather clamps every start index — and column `d`: on the operand's row axis
  the clamped start index alone (that axis is collapsed: no offset), on its column axis the result's own column
  coordinate alone (that axis is not in the start index map: start `0`).
-/
import Idealize.ShloMosaic.PureOps
import Idealize.ShloMosaic.Lib.ValueIdx

noncomputable section

namespace Cert.Lib.GatherRows

open Idealize.ShloMosaic Idealize.ShloMosaic.ValueIdx

variable {α : Type}

/-- Those dimension numbers for an operand `[N, C]`, start indices `[R, 1]` and result `[R, C]`; their conditions
    `wf` are decided on a program's literal shapes. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE GATHER OF ROWS READ AT `(t, d)`: the operand at row `r`, the start index `idx[t, 0]` read signed and clamped into
    `[0, N − 1]`, and column `d`. The row is a variable with its defining equation, so that a user substitutes the
    row it has computed without rewriting under an index's bound proof. -/
theorem gather_rows_apply {N C R w : Nat}
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (t : Fin R) (d : Fin C) (r : Fin N)
    (hr : r.val = min (idx (ix2 t (0 : Fin 1))).toInt.toNat (N - 1)) :
    Host.gather (rowDims N C R wf) x idx (ix2 t d) = x (ix2 r d) := by
  unfold Host.gather
  refine congrArg x (funext fun a => Fin.ext ?_)
  match a with
  | ⟨0, _⟩ =>
    show (rowDims N C R wf).start (ix2 t d) idx 0 + (rowDims N C R wf).batchCoord (ix2 t d) 0
      + (rowDims N C R wf).offCoord (ix2 t d) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 t d) ⟨List.idxOf (0 : Fin 2) (rowDims N C R wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi, hr]
    rfl
  | ⟨1, _⟩ =>
    show (rowDims N C R wf).start (ix2 t d) idx 1 + (rowDims N C R wf).batchCoord (ix2 t d) 1
      + (rowDims N C R wf).offCoord (ix2 t d) 1 = d.val
    rw [GatherDims.batchCoord_eq_zero _ _ _ List.not_mem_nil]
    unfold GatherDims.start
    have h10 : (1 : Fin 2) ∉ ([0] : List (Fin 2)) := by decide
    rw [dif_neg (show (1 : Fin 2) ∉ (rowDims N C R wf).startIndexMap from h10)]
    unfold GatherDims.offCoord
    rw [dif_pos ((GatherDims.mem_sKept _ _).mpr ⟨(show (1 : Fin 2) ∉ (rowDims N C R wf).collapsedSliceDims from h10), List.not_mem_nil⟩)]
    simp only [Nat.add_zero, Nat.zero_add]
    rfl

end Cert.Lib.GatherRows

end
-- ==== Proof.LibConcat3.lean ====
/-
  A concatenation of three matrices along the column axis, read at an index given by coordinates.

  `jnp.concatenate([x, y, z], axis=-1)` of an `[N, a]`, an `[N, b]` and an `[N, c]` matrix is an `[N, T]` matrix with
  `T = a + b + c`: at `(r, q)` it is `x (r, q)` for `q < a`, `y (r, q − a)` for `a ≤ q < a + b`, and
  `z (r, q − a − b)` beyond. The three lemmas say so with the column of the piece named by the caller, the relation
  between the two columns a plain equation of numbers.
-/
import Idealize.ShloMosaic.Lib.Pipeline.Value
import Idealize.ShloMosaic.Lib.ValueIdx

noncomputable section

namespace Cert.LibConcat3

open Idealize.ShloMosaic Idealize.ShloMosaic.ValueIdx

variable {α : Type} {N a b c T : ℕ}
variable (x : (⟨2, ![N, a]⟩ : Shape).Idx → α) (y : (⟨2, ![N, b]⟩ : Shape).Idx → α) (z : (⟨2, ![N, c]⟩ : Shape).Idx → α)

/-- The three pieces, as the operation takes them. -/
abbrev pieces : List ((s : Shape) × (s.Idx → α)) := [⟨⟨2, ![N, a]⟩, x⟩, ⟨⟨2, ![N, b]⟩, y⟩, ⟨⟨2, ![N, c]⟩, z⟩]

/-- Off the joined axis (the rows) a piece's coordinate is the result's. -/
private theorem rows_agree {n m : ℕ} (r : Fin N) (i : Fin n) (q : Fin m) (hr : (⟨2, ![N, n]⟩ : Shape).rank = (⟨2, ![N, m]⟩ : Shape).rank) :
    ∀ d : Fin (⟨2, ![N, n]⟩ : Shape).rank, d.cast hr ≠ (1 : Fin 2) → ((ix2 r i : (⟨2, ![N, n]⟩ : Shape).Idx) d).val = ((ix2 r q : (⟨2, ![N, m]⟩ : Shape).Idx) (d.cast hr)).val := by
  intro d hd
  match d with
  | ⟨0, _⟩ => rfl
  | ⟨1, _⟩ => exact absurd rfl hd

/-- A column inside the first piece reads the first piece. -/
theorem concat3_fst (h : Shape.Concatenates ((pieces x y z).map (·.1)) ⟨2, ![N, T]⟩ (1 : Fin 2))
    (r : Fin N) (q : Fin T) (i : Fin a) (hq : q.val = i.val) :
    concatenate ⟨2, ![N, T]⟩ (1 : Fin 2) (pieces x y z) h (ix2 r q) = x (ix2 r i) :=
  concatenate_apply_piece (1 : Fin 2) (pieces x y z) h (ix2 r q) 0 (by show (0 : ℕ) < 3; omega) ⟨2, ![N, a]⟩ x rfl rfl 0 rfl (ix2 r i)
    (rows_agree r i q rfl) (by show 0 + i.val = q.val; omega)

/-- A column inside the second piece reads the second piece, `a` columns to the left. -/
theorem concat3_snd (h : Shape.Concatenates ((pieces x y z).map (·.1)) ⟨2, ![N, T]⟩ (1 : Fin 2))
    (r : Fin N) (q : Fin T) (i : Fin b) (hq : q.val = a + i.val) :
    concatenate ⟨2, ![N, T]⟩ (1 : Fin 2) (pieces x y z) h (ix2 r q) = y (ix2 r i) :=
  concatenate_apply_piece (1 : Fin 2) (pieces x y z) h (ix2 r q) 1 (by show (1 : ℕ) < 3; omega) ⟨2, ![N, b]⟩ y rfl rfl a rfl (ix2 r i)
    (rows_agree r i q rfl) (by show a + i.val = q.val; omega)

/-- A column inside the third piece reads the third piece, `a + b` columns to the left. -/
theorem concat3_thd (h : Shape.Concatenates ((pieces x y z).map (·.1)) ⟨2, ![N, T]⟩ (1 : Fin 2))
    (r : Fin N) (q : Fin T) (i : Fin c) (hq : q.val = a + b + i.val) :
    concatenate ⟨2, ![N, T]⟩ (1 : Fin 2) (pieces x y z) h (ix2 r q) = z (ix2 r i) :=
  concatenate_apply_piece (1 : Fin 2) (pieces x y z) h (ix2 r q) 2 (by show (2 : ℕ) < 3; omega) ⟨2, ![N, c]⟩ z rfl rfl (a + b) rfl (ix2 r i)
    (rows_agree r i q rfl) (by show a + b + i.val = q.val; omega)

end Cert.LibConcat3

end
-- ==== Proof.KernelResult.lean ====
/-
  The kernel program's four results, read at an index.

  After the region the four output arrays are cut back to their first 4000000 entries; the two energies are results as
  they are, and each force scale is spread along the three columns and multiplied into the displacements. Entry `e` of a
  cut array is entry `e` of the padded one, where the padded inputs are the unpadded ones. Column `k` of the gathered
  table at edge `e` is per-atom vector `k` at the row the edge's (wrapped, clamped) index names. So each result at an
  index is one edge formula of the length and the gathered per-atom values of that edge.
-/
import proofs.«156834_j37752762532668_2_alg».proof.Proof.KernelValue
import proofs.«156834_j37752762532668_2_alg».proof.Proof.HostGlue
import proofs.«156834_j37752762532668_2_alg».proof.Proof.LibGatherRows
import proofs.«156834_j37752762532668_2_alg».proof.Proof.LibConcat3
import Idealize.ShloMosaic.Lib.KernelVsHost
import Idealize.ShloMosaic.Lib.Pipeline.Value
import Idealize.ShloMosaic.Lib.ValueIdx

set_option maxRecDepth 16384

noncomputable section

namespace Cert.KernelIdeal.EdgeResult

open Cert.KernelIdeal Cert.KernelIdeal.Gen Cert.KernelIdeal.Edge Cert.KernelIdeal.EdgeValue Cert.KernelIdeal.EdgeHost Cert.EdgeSpec
open Idealize.ShloMosaic Idealize.ShloMosaic.TcCoe Idealize.SL.Sem Idealize.ShloMosaic.StableHlo Idealize.ShloMosaic.ValueIdx
open Idealize.ShloMosaic.Pipeline (Dat)

/-! ## Layout operations at an index -/

/-- The row of the table an edge reads: its start index read signed and clamped into the table. -/
def rowOf (idx : IVec S4000000x1 32) (e : Fin 4000000) : Fin 200000 :=
  ⟨min (idx (ix2 e (0 : Fin 1))).toInt.toNat (200000 - 1), by omega⟩

/-- An entry below 4000000 of a padded vector is the vector's entry. -/
theorem padH_apply (x : FVec Ideal S4000000 .f32) (w : BitVec 32) (e : Fin 4000000) (h : e.val < 4063232) :
    padH x w (ix1 (⟨e.val, h⟩ : Fin 4063232)) = x (ix1 e) :=
  pad_apply_of_inside _ _ _ x _ pads_S4000000_S4063232_0632320 h_S_ _ (ix1 e) (by
    intro a
    obtain rfl : a = 0 := Subsingleton.elim _ _
    show e.val = 0 + e.val * (0 + 1); omega)

/-- Entry `e` of the cut array is entry `e` of the padded one. -/
theorem cut_apply (g : S4063232.Idx → E) (e : Fin 4000000) (h : e.val < 4063232) :
    extractStridedSlice S4000000 ![0] g slices_S4063232_S4000000_0 (ix1 e) = g (ix1 (⟨e.val, h⟩ : Fin 4063232)) :=
  extractStridedSlice_apply _ _ _ (ix1 e) (ix1 (⟨e.val, h⟩ : Fin 4063232)) (by
    intro a
    obtain rfl : a = 0 := Subsingleton.elim _ _
    show e.val = 0 + e.val; omega)

/-- A vector spread along three columns, at `(e, k)`, is the vector at `e`. -/
theorem spread_apply (v : FVec Ideal S4000000 .f32) (e : Fin 4000000) (k : Fin 3) :
    broadcastInDim S4000000x3 ![0, 1] bcast_S4000000x1_S4000000x3_0_1 (broadcastInDim S4000000x1 ![0] bcast_S4000000_S4000000x1_0 v) (ix2 e k)
      = v (ix1 e) :=
  (broadcastInDim_apply _ bcast_S4000000x1_S4000000x3_0_1 _ (ix2 e k) (ix2 e (0 : Fin 1)) (fun a => by
    match a with
    | ⟨0, _⟩ => exact (if_neg (by show ¬ ((4000000 : ℕ) = 1); omega)).symm
    | ⟨1, _⟩ => exact (if_pos rfl).symm)).trans
  (broadcastInDim_apply _ bcast_S4000000_S4000000x1_0 v (ix2 e (0 : Fin 1)) (ix1 e) (fun a => by
    match a with
    | ⟨0, _⟩ => exact (if_neg (by show ¬ ((4000000 : ℕ) = 1); omega)).symm))

/-- Column `k` of a matrix with three columns, as a vector, at `e`. -/
theorem col0H_apply (g : FVec Ideal S4000000x3 .f32) (e : Fin 4000000) : col0H g (ix1 e) = g (ix2 e (0 : Fin 3)) :=
  (shapeCast_apply _ shapeCasts_S4000000x1_S4000000 (ix1 e) (ix2 e (0 : Fin 1)) (by
    rw [Shape.rowMajor_val_two, Shape.rowMajor_val_one]; show e.val * 1 + 0 = e.val; omega)).trans
  (extractStridedSlice_apply _ g slices_S4000000x3_S4000000x1_0_0 (ix2 e (0 : Fin 1)) (ix2 e (0 : Fin 3)) (fun a => by
    match a with
    | ⟨0, _⟩ => show e.val = 0 + e.val; omega
    | ⟨1, _⟩ => show 0 = 0 + 0; omega))
theorem col1H_apply (g : FVec Ideal S4000000x3 .f32) (e : Fin 4000000) : col1H g (ix1 e) = g (ix2 e (1 : Fin 3)) :=
  (shapeCast_apply _ shapeCasts_S4000000x1_S4000000 (ix1 e) (ix2 e (0 : Fin 1)) (by
    rw [Shape.rowMajor_val_two, Shape.rowMajor_val_one]; show e.val * 1 + 0 = e.val; omega)).trans
  (extractStridedSlice_apply _ g slices_S4000000x3_S4000000x1_0_1 (ix2 e (0 : Fin 1)) (ix2 e (1 : Fin 3)) (fun a => by
    match a with
    | ⟨0, _⟩ => show e.val = 0 + e.val; omega
    | ⟨1, _⟩ => show 1 = 1 + 0; omega))
theorem col2H_apply (g : FVec Ideal S4000000x3 .f32) (e : Fin 4000000) : col2H g (ix1 e) = g (ix2 e (2 : Fin 3)) :=
  (shapeCast_apply _ shapeCasts_S4000000x1_S4000000 (ix1 e) (ix2 e (0 : Fin 1)) (by
    rw [Shape.rowMajor_val_two, Shape.rowMajor_val_one]; show e.val * 1 + 0 = e.val; omega)).trans
  (extractStridedSlice_apply _ g slices_S4000000x3_S4000000x1_0_2 (ix2 e (0 : Fin 1)) (ix2 e (2 : Fin 3)) (fun a => by
    match a with
    | ⟨0, _⟩ => show e.val = 0 + e.val; omega
    | ⟨1, _⟩ => show 2 = 2 + 0; omega))

/-- A per-atom vector as a one-column matrix, at `(r, 0)`. -/
theorem asCol_apply (v : FVec Ideal S200000 .f32) (r : Fin 200000) :
    broadcastInDim S200000x1 ![0] bcast_S200000_S200000x1_0 v (ix2 r (0 : Fin 1)) = v (ix1 r) :=
  broadcastInDim_apply _ bcast_S200000_S200000x1_0 v (ix2 r (0 : Fin 1)) (ix1 r) (fun a => by
    match a with
    | ⟨0, _⟩ => exact (if_neg (by show ¬ ((200000 : ℕ) = 1); omega)).symm)

/-- The packed table's three columns are the three per-atom vectors. -/
theorem tableH_col0 (a3 a4 a5 : FVec Ideal S200000 .f32) (r : Fin 200000) : tableH a3 a4 a5 (ix2 r (0 : Fin 3)) = a3 (ix1 r) :=
  (Cert.LibConcat3.concat3_fst _ _ _ concatenates_S200000x1_S200000x1_S200000x1_S200000x3_d1 r (0 : Fin 3) (0 : Fin 1) rfl).trans (asCol_apply a3 r)
theorem tableH_col1 (a3 a4 a5 : FVec Ideal S200000 .f32) (r : Fin 200000) : tableH a3 a4 a5 (ix2 r (1 : Fin 3)) = a4 (ix1 r) :=
  (Cert.LibConcat3.concat3_snd _ _ _ concatenates_S200000x1_S200000x1_S200000x1_S200000x3_d1 r (1 : Fin 3) (0 : Fin 1) rfl).trans (asCol_apply a4 r)
theorem tableH_col2 (a3 a4 a5 : FVec Ideal S200000 .f32) (r : Fin 200000) : tableH a3 a4 a5 (ix2 r (2 : Fin 3)) = a5 (ix1 r) :=
  (Cert.LibConcat3.concat3_thd _ _ _ concatenates_S200000x1_S200000x1_S200000x1_S200000x3_d1 r (2 : Fin 3) (0 : Fin 1) rfl).trans (asCol_apply a5 r)

/-- A gathered table at `(e, d)` is the table at the edge's row and column `d`. -/
theorem gatT_apply (T : FVec Ideal S200000x3 .f32) (a : IVec S4000000 32) (e : Fin 4000000) (d : Fin 3) :
    gatT T a (ix2 e d) = T (ix2 (rowOf (idxH a) e) d) :=
  Cert.Lib.GatherRows.gather_rows_apply (N := 200000) (C := 3) (R := 4000000)
    gather_S200000x3_S4000000x1_S4000000x3_1_0_n_n_0_1_13_wf T (idxH a) e d (rowOf (idxH a) e) rfl

/-- The three per-edge host vectors at an edge. -/
theorem prodqH_apply (a0 a1 : IVec S4000000 32) (a3 a4 a5 : FVec Ideal S200000 .f32) (e : Fin 4000000) :
    prodqH a0 a1 a3 a4 a5 (ix1 e) = FloatOps.mulf (a3 (ix1 (rowOf (idxH a0) e))) (a3 (ix1 (rowOf (idxH a1) e))) := by
  show FloatOps.mulf (col0H (gatT (tableH a3 a4 a5) a0) (ix1 e)) (col0H (gatT (tableH a3 a4 a5) a1) (ix1 e)) = _
  rw [col0H_apply, col0H_apply, gatT_apply, gatT_apply, tableH_col0, tableH_col0]
theorem c6H_apply (a0 a1 : IVec S4000000 32) (a3 a4 a5 : FVec Ideal S200000 .f32) (e : Fin 4000000) :
    c6H a0 a1 a3 a4 a5 (ix1 e) = FloatOps.hostUnary .sqrt (FloatOps.mulf (a4 (ix1 (rowOf (idxH a0) e))) (a4 (ix1 (rowOf (idxH a1) e)))) := by
  show FloatOps.hostUnary .sqrt (FloatOps.mulf (col1H (gatT (tableH a3 a4 a5) a0) (ix1 e)) (col1H (gatT (tableH a3 a4 a5) a1) (ix1 e))) = _
  rw [col1H_apply, col1H_apply, gatT_apply, gatT_apply, tableH_col1, tableH_col1]
theorem r0H_apply (a0 a1 : IVec S4000000 32) (a3 a4 a5 : FVec Ideal S200000 .f32) (e : Fin 4000000) :
    r0H a0 a1 a3 a4 a5 (ix1 e) = FloatOps.mulf (lit 0x3F000000#32) (FloatOps.addf (a5 (ix1 (rowOf (idxH a0) e))) (a5 (ix1 (rowOf (idxH a1) e)))) := by
  show FloatOps.mulf (lit 0x3F000000#32) (FloatOps.addf (col2H (gatT (tableH a3 a4 a5) a0) (ix1 e)) (col2H (gatT (tableH a3 a4 a5) a1) (ix1 e))) = _
  rw [col2H_apply, col2H_apply, gatT_apply, gatT_apply, tableH_col2, tableH_col2]

variable (m : (ℓ : Loc nD τ sig) → Buf (Elt Ideal) ℓ) (ρ : Dev nD → PrngReg)

/-! ## The host operations after the region -/

/-- Inside the trailing operations each output array of the region reads as its whole-array function, -/
theorem arr4 (c : Dev nD) : Pipeline.withArrays (cfgs 0).spec c (V0 m c) (fun w => (dats m 0 c).arrAt w (cfgs 0).N) (Proc.devRef .tc main_v43_0) = G4 (V m c main_v39) (V m c main_v40) :=
  (Pipeline.withArrays_arr spec0 launch0.win.arr_inj c _ _ 4).trans (final4 m c)
theorem arr5 (c : Dev nD) : Pipeline.withArrays (cfgs 0).spec c (V0 m c) (fun w => (dats m 0 c).arrAt w (cfgs 0).N) (Proc.devRef .tc main_v43_1) = G5 (V m c main_v39) (V m c main_v41) (V m c main_v42) :=
  (Pipeline.withArrays_arr spec0 launch0.win.arr_inj c _ _ 5).trans (final5 m c)
theorem arr6 (c : Dev nD) : Pipeline.withArrays (cfgs 0).spec c (V0 m c) (fun w => (dats m 0 c).arrAt w (cfgs 0).N) (Proc.devRef .tc main_v43_2) = G6 (V m c main_v39) (V m c main_v40) :=
  (Pipeline.withArrays_arr spec0 launch0.win.arr_inj c _ _ 6).trans (final6 m c)
theorem arr7 (c : Dev nD) : Pipeline.withArrays (cfgs 0).spec c (V0 m c) (fun w => (dats m 0 c).arrAt w (cfgs 0).N) (Proc.devRef .tc main_v43_3) = G7 (V m c main_v39) (V m c main_v41) (V m c main_v42) :=
  (Pipeline.withArrays_arr spec0 launch0.win.arr_inj c _ _ 7).trans (final7 m c)

/-- and the displacement array as launched. -/
theorem arg2_tail (c : Dev nD) : Pipeline.withArrays (cfgs 0).spec c (V0 m c) (fun w => (dats m 0 c).arrAt w (cfgs 0).N) (Proc.devRef .tc main_arg2) = A2 m c :=
  (Pipeline.withArrays_of_ne _ c (V0 m c) _ main_arg2 (by exact (by decide : ∀ w, Pipeline.arrRef spec0 w ≠ main_arg2))).trans (V_main_arg2 m c)

/-- The four results as the trailing operations compute them: two cut arrays, and the displacements times a cut array
    spread along the columns. -/

theorem K44_eq (c : Dev nD) : (Pipeline.afterTail₀ cfgs (dats m) 0 (V0 m) [hostOps1] c main_v44 : S4000000.Idx → Ideal .f32) = extractStridedSlice S4000000 ![0] (G4 (V m c main_v39) (V m c main_v40)) slices_S4063232_S4000000_0 := by
  unfold Pipeline.afterTail₀
  show StableHlo.after hostOps1 _ (Proc.devRef .tc main_v44) = _
  after_results
  rw [arr4]

theorem K45_eq (c : Dev nD) : (Pipeline.afterTail₀ cfgs (dats m) 0 (V0 m) [hostOps1] c main_v45 : S4000000.Idx → Ideal .f32) = extractStridedSlice S4000000 ![0] (G5 (V m c main_v39) (V m c main_v41) (V m c main_v42)) slices_S4063232_S4000000_0 := by
  unfold Pipeline.afterTail₀
  show StableHlo.after hostOps1 _ (Proc.devRef .tc main_v45) = _
  after_results
  rw [arr5]

theorem K50_eq (c : Dev nD) : (Pipeline.afterTail₀ cfgs (dats m) 0 (V0 m) [hostOps1] c main_v50 : S4000000x3.Idx → Ideal .f32) = mulf (A2 m c) (broadcastInDim S4000000x3 ![0, 1] bcast_S4000000x1_S4000000x3_0_1 (broadcastInDim S4000000x1 ![0] bcast_S4000000_S4000000x1_0 (extractStridedSlice S4000000 ![0] (G6 (V m c main_v39) (V m c main_v40)) slices_S4063232_S4000000_0))) := by
  unfold Pipeline.afterTail₀
  show StableHlo.after hostOps1 _ (Proc.devRef .tc main_v50) = _
  after_results
  rw [arg2_tail, arr6]

theorem K53_eq (c : Dev nD) : (Pipeline.afterTail₀ cfgs (dats m) 0 (V0 m) [hostOps1] c main_v53 : S4000000x3.Idx → Ideal .f32) = mulf (A2 m c) (broadcastInDim S4000000x3 ![0, 1] bcast_S4000000x1_S4000000x3_0_1 (broadcastInDim S4000000x1 ![0] bcast_S4000000_S4000000x1_0 (extractStridedSlice S4000000 ![0] (G7 (V m c main_v39) (V m c main_v41) (V m c main_v42)) slices_S4063232_S4000000_0))) := by
  unfold Pipeline.afterTail₀
  show StableHlo.after hostOps1 _ (Proc.devRef .tc main_v53) = _
  after_results
  rw [arg2_tail, arr7]

/-! ## The results at an index -/

/-- The Coulomb energy of edge `e`. -/
theorem res44 (c : Dev nD) (e : Fin 4000000) :
    (Pipeline.afterTail₀ cfgs (dats m) 0 (V0 m) [hostOps1] c main_v44 : S4000000.Idx → Ideal .f32) (ix1 e) = ecoul (rijH (A2 m c) (ix1 e)) (FloatOps.mulf (A3 m c (ix1 (rowOf (idxH (A0 m c)) e))) (A3 m c (ix1 (rowOf (idxH (A1 m c)) e)))) := by
  have h : e.val < 4063232 := by omega
  rw [K44_eq, cut_apply _ e h]
  show ecoul (V m c main_v39 (ix1 ⟨e.val, h⟩)) (V m c main_v40 (ix1 ⟨e.val, h⟩)) = _
  rw [V_v39, V_v40, padH_apply, padH_apply, prodqH_apply]

/-- The dispersion energy of edge `e`. -/
theorem res45 (c : Dev nD) (e : Fin 4000000) :
    (Pipeline.afterTail₀ cfgs (dats m) 0 (V0 m) [hostOps1] c main_v45 : S4000000.Idx → Ideal .f32) (ix1 e) = edisp (rijH (A2 m c) (ix1 e)) (FloatOps.hostUnary .sqrt (FloatOps.mulf (A4 m c (ix1 (rowOf (idxH (A0 m c)) e))) (A4 m c (ix1 (rowOf (idxH (A1 m c)) e))))) (FloatOps.mulf (lit 0x3F000000#32) (FloatOps.addf (A5 m c (ix1 (rowOf (idxH (A0 m c)) e))) (A5 m c (ix1 (rowOf (idxH (A1 m c)) e))))) := by
  have h : e.val < 4063232 := by omega
  rw [K45_eq, cut_apply _ e h]
  show edisp (V m c main_v39 (ix1 ⟨e.val, h⟩)) (V m c main_v41 (ix1 ⟨e.val, h⟩)) (V m c main_v42 (ix1 ⟨e.val, h⟩)) = _
  rw [V_v39, V_v41, V_v42, padH_apply, padH_apply, padH_apply, c6H_apply, r0H_apply]

/-- Component `k` of the Coulomb force of edge `e`: the displacement component times the force scale. -/
theorem res50 (c : Dev nD) (e : Fin 4000000) (k : Fin 3) :
    (Pipeline.afterTail₀ cfgs (dats m) 0 (V0 m) [hostOps1] c main_v50 : S4000000x3.Idx → Ideal .f32) (ix2 e k)
      = FloatOps.mulf (A2 m c (ix2 e k)) (fcs (rijH (A2 m c) (ix1 e)) (FloatOps.mulf (A3 m c (ix1 (rowOf (idxH (A0 m c)) e))) (A3 m c (ix1 (rowOf (idxH (A1 m c)) e))))) := by
  have h : e.val < 4063232 := by omega
  rw [K50_eq]
  show FloatOps.mulf (A2 m c (ix2 e k)) (broadcastInDim S4000000x3 ![0, 1] bcast_S4000000x1_S4000000x3_0_1 (broadcastInDim S4000000x1 ![0] bcast_S4000000_S4000000x1_0 (extractStridedSlice S4000000 ![0] (G6 (V m c main_v39) (V m c main_v40)) slices_S4063232_S4000000_0)) (ix2 e k)) = _
  rw [spread_apply, cut_apply _ e h]
  show FloatOps.mulf _ (fcs (V m c main_v39 (ix1 ⟨e.val, h⟩)) (V m c main_v40 (ix1 ⟨e.val, h⟩))) = _
  rw [V_v39, V_v40, padH_apply, padH_apply, prodqH_apply]

/-- Component `k` of the dispersion force of edge `e`. -/
theorem res53 (c : Dev nD) (e : Fin 4000000) (k : Fin 3) :
    (Pipeline.afterTail₀ cfgs (dats m) 0 (V0 m) [hostOps1] c main_v53 : S4000000x3.Idx → Ideal .f32) (ix2 e k)
      = FloatOps.mulf (A2 m c (ix2 e k)) (fds (rijH (A2 m c) (ix1 e)) (FloatOps.hostUnary .sqrt (FloatOps.mulf (A4 m c (ix1 (rowOf (idxH (A0 m c)) e))) (A4 m c (ix1 (rowOf (idxH (A1 m c)) e))))) (FloatOps.mulf (lit 0x3F000000#32) (FloatOps.addf (A5 m c (ix1 (rowOf (idxH (A0 m c)) e))) (A5 m c (ix1 (rowOf (idxH (A1 m c)) e)))))) := by
  have h : e.val < 4063232 := by omega
  rw [K53_eq]
  show FloatOps.mulf (A2 m c (ix2 e k)) (broadcastInDim S4000000x3 ![0, 1] bcast_S4000000x1_S4000000x3_0_1 (broadcastInDim S4000000x1 ![0] bcast_S4000000_S4000000x1_0 (extractStridedSlice S4000000 ![0] (G7 (V m c main_v39) (V m c main_v41) (V m c main_v42)) slices_S4063232_S4000000_0)) (ix2 e k)) = _
  rw [spread_apply, cut_apply _ e h]
  show FloatOps.mulf _ (fds (V m c main_v39 (ix1 ⟨e.val, h⟩)) (V m c main_v41 (ix1 ⟨e.val, h⟩)) (V m c main_v42 (ix1 ⟨e.val, h⟩))) = _
  rw [V_v39, V_v41, V_v42, padH_apply, padH_apply, padH_apply, c6H_apply, r0H_apply]

/-! ## The run, with the results named -/

/-- The kernel program runs to its end with its four results at what the trailing operations compute and its six
    arguments as launched. -/
theorem kernel_run : θ_run defs (onTc (τ := τ) (main (F := Ideal))) ⟨m, fun _ => 0, ρ⟩ (fun r => ∀ c : Dev nD,
      r.2.mem ((c.tc : Thread nD τ).loc main_v44) = Pipeline.afterTail₀ cfgs (dats m) 0 (V0 m) [hostOps1] c main_v44
      ∧ r.2.mem ((c.tc : Thread nD τ).loc main_v50) = Pipeline.afterTail₀ cfgs (dats m) 0 (V0 m) [hostOps1] c main_v50
      ∧ r.2.mem ((c.tc : Thread nD τ).loc main_v45) = Pipeline.afterTail₀ cfgs (dats m) 0 (V0 m) [hostOps1] c main_v45
      ∧ r.2.mem ((c.tc : Thread nD τ).loc main_v53) = Pipeline.afterTail₀ cfgs (dats m) 0 (V0 m) [hostOps1] c main_v53
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c).2 main_v44 (Pipeline.mem_restRefs_of main_v44 (by decide) (by decide)),
     (h c).2 main_v50 (Pipeline.mem_restRefs_of main_v50 (by decide) (by decide)),
     (h c).2 main_v45 (Pipeline.mem_restRefs_of main_v45 (by decide) (by decide)),
     (h c).2 main_v53 (Pipeline.mem_restRefs_of main_v53 (by decide) (by decide)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c)⟩)
    (run_main m ρ)

end Cert.KernelIdeal.EdgeResult

end
-- ==== Proof.RefValue.lean ====
/-
  The reference program's four per-edge results, read at an edge, are the per-edge formulas of the pair potential.

  The reference computes, for every edge `i`, from the edge's length `r` (the square root of a row sum), the two
  gathered charges, the two gathered dispersion coefficients and the two gathered radii: the Coulomb energy, the Coulomb
  force scale, the dispersion energy and the dispersion force scale, one elementwise operation at a time on whole
  vectors. Read at one edge, each operation is the scalar operation on the extended reals, and the chain of them is the
  scalar formula of `Cert.EdgeSpec`. Three spellings differ and are reconciled here: the reference multiplies
  `(k·a)·b` where the formula has `k·(a·b)` (associativity of the product of extended reals); the reference negates
  where the formula subtracts from the word of zero (`0 − x = −x`); and the reference writes the logistic function out
  as `1/(1 + exp(−z))`, which is its definition. The two force arrays are the displacement array times the force scale
  of the row's edge, the scale carried along the three columns by two broadcasts.
-/
import proofs.«156834_j37752762532668_2_alg».proof.Proof.Gen.ReferenceIdeal.Read
import proofs.«156834_j37752762532668_2_alg».proof.Proof.EdgeSpec
import Idealize.ShloMosaic.Lib.IdealHost
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.TcCoe
  Idealize.ShloMosaic.StableHlo

/-! ### The scalar operations, one spelling for another -/
section Scalar
variable (x y z : EdgeSpec.E)

/-- The host's division, exponential, `log(1 + ·)` and absolute value are the formula's operations of the same names. -/
theorem hostDivf_eq : FloatOps.hostDivf x y = FloatOps.divf x y := rfl
theorem hostExp_eq : FloatOps.hostUnary .exp x = FloatOps.exp x := rfl
theorem hostLog1p_eq : FloatOps.hostUnary .log1p x = FloatOps.log1p x := rfl
theorem hostAbsf_eq : FloatOps.hostAbsf x = FloatOps.absf x := rfl

/-- "Unordered or unequal" and "ordered and unequal" are both `≠` on the extended reals. -/
theorem cmpf_une_eq : FloatOps.cmpf .une x y = FloatOps.cmpf .one x y := rfl

/-- Negating is subtracting from the word of zero: `−x = 0 − x`. -/
theorem hostNegf_eq : FloatOps.hostNegf x = FloatOps.subf (EdgeSpec.lit 0x00000000#32) x := by
  show -x = Ideal.ofBits .f32 0x00000000#32 - x
  rw [Ideal.ofBits_zero_f32, zero_sub]

/-- The product of three factors, regrouped: `(x·y)·z = x·(y·z)`. -/
theorem mulf_assoc : FloatOps.mulf (FloatOps.mulf x y) z = FloatOps.mulf x (FloatOps.mulf y z) := by
  show (x * y) * z = x * (y * z)
  exact mul_assoc x y z

/-- The logistic function written out: `1/(1 + exp(−z)) = σ(z)`, with 1 the word of one. -/
theorem logistic_eq :
    FloatOps.hostDivf (EdgeSpec.lit 0x3F800000#32)
        (FloatOps.addf (EdgeSpec.lit 0x3F800000#32) (FloatOps.hostUnary .exp (FloatOps.hostNegf z)))
      = FloatOps.logistic z := by
  show Ideal.div (Ideal.ofBits .f32 0x3F800000#32) (Ideal.ofBits .f32 0x3F800000#32 + Ideal.exp (-z))
    = Ideal.div 1 (1 + Ideal.exp (-z))
  rw [Ideal.ofBits_one_f32]

end Scalar

variable (x0 x1 : (⟨S4000000, .i32⟩ : BufTy).Contents (Elt Ideal))
  (x2 : (⟨S4000000x3, .f32⟩ : BufTy).Contents (Elt Ideal))
  (x3 x4 x5 : (⟨S200000, .f32⟩ : BufTy).Contents (Elt Ideal))

/-! ### The Coulomb part -/

/-- Stage 20 is the Coulomb prefactor `k·q/r`: the reference's `(k·qₐ)·q_b` is `k·(qₐ·q_b)`. -/
theorem v20_eq (i : S4000000.Idx) :
    val_main_v20 (F := Ideal) x0 x1 x2 x3 i
      = EdgeSpec.pref (val_main_v2 (F := Ideal) x2 i)
          (FloatOps.mulf (val_main_v9 (F := Ideal) x0 x3 i) (val_main_v18 (F := Ideal) x1 x3 i)) := by
  rw [val_main_v20_apply, val_main_v19_apply, val_main_v11_apply, val_main_v10_apply, val_main_cst_1_apply,
    mulf_assoc, hostDivf_eq, EdgeSpec.pref]

/-- Stages 21–30 are the logistic damping `σ(8.5·(r − ρ))`, the logistic function written out as `1/(1 + exp(−z))`. -/
theorem v30_eq (i : S4000000.Idx) :
    val_main_v30 (F := Ideal) x2 i = EdgeSpec.damp (val_main_v2 (F := Ideal) x2 i) := by
  rw [val_main_v30_apply, val_main_v29_apply, val_main_v28_apply, val_main_cst_7_apply, val_main_v27_apply,
    val_main_v26_apply, val_main_cst_6_apply, val_main_v25_apply, val_main_v24_apply, val_main_v23_apply,
    val_main_v22_apply, val_main_cst_5_apply, val_main_v21_apply, val_main_cst_4_apply, logistic_eq,
    EdgeSpec.damp]

/-- Stages 31–36 are the softplus argument `β(r − ρ)/ρ`. -/
theorem v36_eq (i : S4000000.Idx) :
    val_main_v36 (F := Ideal) x2 i
      = FloatOps.divf (FloatOps.mulf EdgeSpec.beta (FloatOps.subf (val_main_v2 (F := Ideal) x2 i) EdgeSpec.rho))
          EdgeSpec.rho := by
  rw [val_main_v36_apply, val_main_v34_apply, val_main_v35_apply, val_main_v33_apply, val_main_v32_apply,
    val_main_cst_10_apply, val_main_cst_9_apply, val_main_v31_apply, val_main_cst_8_apply, hostDivf_eq]

/-- The called function is `softplus` in its overflow-free form; its "unordered or unequal" test is the formula's
    "ordered and unequal" one, and its negation is `0 − ·`. -/
theorem v37_eq (i : S4000000.Idx) :
    val_main_v37 (F := Ideal) x2 i = EdgeSpec.softplus (val_main_v36 (F := Ideal) x2 i) := by
  rw [val_main_v37_apply, val_main_call0_v4_apply, val_main_call0_v6_apply, val_main_call0_v11_apply,
    val_main_call0_v5_apply, val_main_call0_v1_apply, val_main_call0_v10_apply, val_main_call0_v0_apply,
    val_main_call0_v9_apply, val_main_call0_v8_apply, val_main_call0_v7_apply, val_main_call0_v3_apply,
    val_main_call0_v2_apply, val_main_call0_cst_apply]
  simp only [cmpf_une_eq, hostLog1p_eq, hostExp_eq, hostNegf_eq, hostAbsf_eq, EdgeSpec.softplus]

/-- Stages 38–44 are the switching factor `(r/ρ) / (1 + softplus(β(r − ρ)/ρ)/β)`. -/
theorem v44_eq (i : S4000000.Idx) :
    val_main_v44 (F := Ideal) x2 i = EdgeSpec.sfac (val_main_v2 (F := Ideal) x2 i) := by
  rw [val_main_v44_apply, val_main_v41_apply, val_main_v43_apply, val_main_v40_apply, val_main_v42_apply,
    val_main_v39_apply, val_main_cst_12_apply, val_main_cst_13_apply, val_main_v38_apply,
    val_main_cst_11_apply, v37_eq, v36_eq]
  simp only [hostDivf_eq, EdgeSpec.sfac]

/-- Stage 50 is `g·r`. -/
theorem v50_eq (i : S4000000.Idx) :
    val_main_v50 (F := Ideal) x2 i = EdgeSpec.grij (val_main_v2 (F := Ideal) x2 i) := by
  rw [val_main_v50_apply, val_main_v49_apply, val_main_cst_14_apply, EdgeSpec.grij]

/-- Stages 51–53 are `exp(−(g·r)²)`, the negation `0 − g·r`. -/
theorem v53_eq (i : S4000000.Idx) :
    val_main_v53 (F := Ideal) x2 i = EdgeSpec.expm2 (val_main_v2 (F := Ideal) x2 i) := by
  rw [val_main_v53_apply, val_main_v52_apply, val_main_v51_apply, v50_eq, hostNegf_eq, hostExp_eq,
    EdgeSpec.expm2]

/-- Stages 54–59 are `t = 1/(1 + p·g·r)`. -/
theorem v59_eq (i : S4000000.Idx) :
    val_main_v59 (F := Ideal) x2 i = EdgeSpec.tt (val_main_v2 (F := Ideal) x2 i) := by
  rw [val_main_v59_apply, val_main_v58_apply, val_main_v57_apply, val_main_cst_17_apply, val_main_v56_apply,
    val_main_v55_apply, val_main_cst_16_apply, val_main_v54_apply, val_main_cst_15_apply, v50_eq, hostDivf_eq,
    EdgeSpec.tt]

/-- Stages 60–74 are the polynomial form of `erfc(g·r)`. -/
theorem v74_eq (i : S4000000.Idx) :
    val_main_v74 (F := Ideal) x2 i = EdgeSpec.erfc (val_main_v2 (F := Ideal) x2 i) := by
  rw [val_main_v74_apply, val_main_v73_apply, val_main_v72_apply, val_main_v71_apply, val_main_v70_apply,
    val_main_cst_22_apply, val_main_v69_apply, val_main_v68_apply, val_main_v67_apply, val_main_cst_21_apply,
    val_main_v66_apply, val_main_v65_apply, val_main_v64_apply, val_main_cst_20_apply, val_main_v63_apply,
    val_main_v62_apply, val_main_v61_apply, val_main_cst_19_apply, val_main_v60_apply, val_main_cst_18_apply,
    v59_eq, v53_eq, EdgeSpec.erfc]

/-- The Coulomb energy of edge `i`. -/
theorem v78_eq (i : S4000000.Idx) :
    val_main_v78 (F := Ideal) x0 x1 x2 x3 i
      = EdgeSpec.ecoul (val_main_v2 (F := Ideal) x2 i)
          (FloatOps.mulf (val_main_v9 (F := Ideal) x0 x3 i) (val_main_v18 (F := Ideal) x1 x3 i)) := by
  rw [val_main_v78_apply, val_main_v45_apply, val_main_v77_apply, val_main_v76_apply, val_main_v75_apply,
    val_main_cst_23_apply, v20_eq, v44_eq, v74_eq, EdgeSpec.ecoul]

/-- The Coulomb force scale of edge `i`. -/
theorem v88_eq (i : S4000000.Idx) :
    val_main_v88 (F := Ideal) x0 x1 x2 x3 i
      = EdgeSpec.fcs (val_main_v2 (F := Ideal) x2 i)
          (FloatOps.mulf (val_main_v9 (F := Ideal) x0 x3 i) (val_main_v18 (F := Ideal) x1 x3 i)) := by
  rw [val_main_v88_apply, val_main_v86_apply, val_main_v87_apply, val_main_v48_apply, val_main_v85_apply,
    val_main_v47_apply, val_main_v84_apply, val_main_v46_apply, val_main_v82_apply, val_main_v83_apply,
    val_main_v81_apply, val_main_cst_25_apply, val_main_v80_apply, val_main_v79_apply, val_main_cst_24_apply,
    v20_eq, v30_eq, v44_eq, v74_eq, v50_eq, v53_eq, hostDivf_eq, EdgeSpec.fcs]

/-! ### The dispersion part -/

/-- The dispersion coefficient of edge `i`: the square root of the product of the two gathered coefficients. -/
abbrev c6 (i : S4000000.Idx) : EdgeSpec.E :=
  FloatOps.hostUnary .sqrt (FloatOps.mulf (val_main_v98 (F := Ideal) x0 x4 i) (val_main_v105 (F := Ideal) x1 x4 i))

/-- The radius of edge `i`: half the sum of the two gathered radii. -/
abbrev r0 (i : S4000000.Idx) : EdgeSpec.E :=
  FloatOps.mulf (EdgeSpec.lit 0x3F000000#32)
    (FloatOps.addf (val_main_v114 (F := Ideal) x0 x5 i) (val_main_v121 (F := Ideal) x1 x5 i))

/-- Stages 106–107 are the dispersion coefficient. -/
theorem v107_eq (i : S4000000.Idx) : val_main_v107 (F := Ideal) x0 x1 x4 i = c6 x0 x1 x4 i := by
  rw [val_main_v107_apply, val_main_v106_apply]

/-- Stages 122–124 are the radius. -/
theorem v124_eq (i : S4000000.Idx) : val_main_v124 (F := Ideal) x0 x1 x5 i = r0 x0 x1 x5 i := by
  rw [val_main_v124_apply, val_main_v123_apply, val_main_v122_apply, val_main_cst_34_apply]

/-- Stages 125–129 are `r⁶ + a⁶`, the sixth power as `r²·(r²·r²)`. -/
theorem v129_eq (i : S4000000.Idx) :
    val_main_v129 (F := Ideal) x2 i = EdgeSpec.r6 (val_main_v2 (F := Ideal) x2 i) := by
  rw [val_main_v129_apply, val_main_v127_apply, val_main_v128_apply, val_main_v126_apply,
    val_main_cst_35_apply, val_main_v125_apply, EdgeSpec.r6, EdgeSpec.pow6]

/-- Stages 130–133 are `e = exp(r − 2.5·r0)`. -/
theorem v133_eq (i : S4000000.Idx) :
    val_main_v133 (F := Ideal) x0 x1 x2 x5 i = EdgeSpec.ee (val_main_v2 (F := Ideal) x2 i) (r0 x0 x1 x5 i) := by
  rw [val_main_v133_apply, val_main_v132_apply, val_main_v131_apply, val_main_v130_apply,
    val_main_cst_36_apply, v124_eq, hostExp_eq, EdgeSpec.ee]

/-- Stages 134–139 are the dispersion damping `0.85 + 0.82/(1 + e)`. -/
theorem v139_eq (i : S4000000.Idx) :
    val_main_v139 (F := Ideal) x0 x1 x2 x5 i = EdgeSpec.cso (val_main_v2 (F := Ideal) x2 i) (r0 x0 x1 x5 i) := by
  rw [val_main_v139_apply, val_main_v138_apply, val_main_v137_apply, val_main_cst_39_apply,
    val_main_v136_apply, val_main_v135_apply, val_main_cst_38_apply, val_main_v134_apply,
    val_main_cst_37_apply, v133_eq, hostDivf_eq, EdgeSpec.cso]

/-- The dispersion energy of edge `i`, the reference's negation being `0 − c6`. -/
theorem v167_eq (i : S4000000.Idx) :
    val_main_v167 (F := Ideal) x0 x1 x2 x4 x5 i
      = EdgeSpec.edisp (val_main_v2 (F := Ideal) x2 i) (c6 x0 x1 x4 i) (r0 x0 x1 x5 i) := by
  rw [val_main_v167_apply, val_main_v142_apply, val_main_v166_apply, val_main_v141_apply, val_main_v165_apply,
    val_main_v140_apply, val_main_cst_43_apply, v107_eq, v129_eq, v139_eq]
  simp only [hostNegf_eq, hostDivf_eq, EdgeSpec.edisp]

/-- The dispersion force scale of edge `i`. -/
theorem v161_eq (i : S4000000.Idx) :
    val_main_v161 (F := Ideal) x0 x1 x2 x4 x5 i
      = EdgeSpec.fds (val_main_v2 (F := Ideal) x2 i) (c6 x0 x1 x4 i) (r0 x0 x1 x5 i) := by
  rw [val_main_v161_apply, val_main_v160_apply, val_main_v151_apply, val_main_v159_apply, val_main_v150_apply,
    val_main_v152_apply, val_main_v158_apply, val_main_v148_apply, val_main_v149_apply, val_main_v154_apply,
    val_main_v157_apply, val_main_v144_apply, val_main_v147_apply, val_main_v153_apply, val_main_v156_apply,
    val_main_v143_apply, val_main_v146_apply, val_main_cst_41_apply, val_main_v155_apply,
    val_main_cst_40_apply, val_main_v145_apply, val_main_cst_42_apply, v107_eq, v129_eq, v139_eq, v133_eq]
  simp only [hostDivf_eq, EdgeSpec.fds]

/-! ### The two force arrays -/

/-- The row of an element of the `[4000000, 3]` array, as an index of the edge vectors. -/
theorem idx_row (j : S4000000x3.Idx) : idx_main_v89 (idx_main_v90 j) = ValueIdx.ix1 (n := 4000000) (j 0) := by
  funext a
  match a with
  | ⟨0, _⟩ => rfl

theorem idx_row' (j : S4000000x3.Idx) : idx_main_v162 (idx_main_v163 j) = ValueIdx.ix1 (n := 4000000) (j 0) := by
  funext a
  match a with
  | ⟨0, _⟩ => rfl

/-- The Coulomb force array: the displacement times the Coulomb force scale of the row's edge. -/
theorem v91_eq (j : S4000000x3.Idx) :
    val_main_v91 (F := Ideal) x0 x1 x2 x3 j
      = FloatOps.mulf (F := Ideal) (φ := .f32) (x2 j)
          (val_main_v88 (F := Ideal) x0 x1 x2 x3 (ValueIdx.ix1 (n := 4000000) (j 0))) := by
  rw [val_main_v91_apply, val_main_v90_apply, val_main_v89_apply, idx_row]

/-- The dispersion force array: the displacement times the dispersion force scale of the row's edge. -/
theorem v164_eq (j : S4000000x3.Idx) :
    val_main_v164 (F := Ideal) x0 x1 x2 x4 x5 j
      = FloatOps.mulf (F := Ideal) (φ := .f32) (x2 j)
          (val_main_v161 (F := Ideal) x0 x1 x2 x4 x5 (ValueIdx.ix1 (n := 4000000) (j 0))) := by
  rw [val_main_v164_apply, val_main_v163_apply, val_main_v162_apply, idx_row']

end Cert.ReferenceIdeal.RefValue

end
-- ==== Proof.LibGatherVec.lean ====
/-
  A general lemma: `stablehlo.gather` of single ELEMENTS of a rank-1 operand, read at an index.

  What `v[idx]` / `jnp.take(v, idx)` of a vector `v : [N]` at an integer vector `idx : [R]` lowers to: a gather with
  offset_dims `[]`, collapsed_slice_dims `[0]`, start_index_map `[0]`, index_vector_dim `1` and slice sizes `[1]` over
  the indices as a column `[R, 1]`. Result element `t` is `v` at `idx[t, 0]` — read as a signed integer and clamped
  into `[0, N − 1]`, as the gather clamps every start index: the operand's one axis is collapsed, so the clamped start
  index is the whole coordinate.
-/
import Idealize.ShloMosaic.PureOps
import Idealize.ShloMosaic.Lib.ValueIdx

noncomputable section

namespace Cert.LibGatherVec

open Idealize.ShloMosaic Idealize.ShloMosaic.ValueIdx

variable {α : Type}

/-- Those dimension numbers for an operand `[N]`, start indices `[R, 1]` and result `[R]`; their conditions `wf` are
    decided on a program's literal shapes. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE GATHER OF ELEMENTS READ AT `t`: the operand at `r`, the start index `idx[t, 0]` read signed and clamped into
    `[0, N − 1]`. The position is a variable with its defining equation, so that a user substitutes the position it has
    computed without rewriting under an index's bound proof. -/
theorem gather_vec_apply {N R w : Nat}
    (wf : GatherDims.WF ⟨1, ![N]⟩ ⟨2, ![R, 1]⟩ ⟨1, ![R]⟩ [] [0] [] [0] [] 1 ![1])
    (v : (⟨1, ![N]⟩ : Shape).Idx → α) (idx : IVec ⟨2, ![R, 1]⟩ w) (t : Fin R) (r : Fin N)
    (hr : r.val = min (idx (ix2 t (0 : Fin 1))).toInt.toNat (N - 1)) :
    Host.gather (vecDims N R wf) v idx (ix1 t) = v (ix1 r) := by
  unfold Host.gather
  refine congrArg v (funext fun a => Fin.ext ?_)
  obtain rfl : a = 0 := Subsingleton.elim _ _
  show (vecDims N R wf).start (ix1 t) idx 0 + (vecDims N R wf).batchCoord (ix1 t) 0 + (vecDims N R wf).offCoord (ix1 t) 0 = r.val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 t) ⟨List.idxOf (0 : Fin 1) (vecDims N R wf).startIndexMap,
      List.idxOf_lt_length_iff.2 (List.mem_singleton.mpr rfl)⟩ = ix2 t (0 : Fin 1) := by
    funext b; refine Fin.ext ?_
    match b with
    | ⟨0, _⟩ => rfl
    | ⟨1, _⟩ => rfl
  rw [hsi, hr]
  rfl

end Cert.LibGatherVec

end
-- ==== Proof.Bridge.lean ====
/-
  The kernel program's results and the reference's are equal, index by index.

  Both sides are now one edge formula of the same arguments: the length of the edge (the same term in both programs), and
  per-atom values gathered at the edge's two atoms. The kernel program gathers rows of the packed table and takes a
  column; the reference gathers each per-atom vector by itself. Both read the row the edge's index names after the same
  wrapping of negative indices and the same clamping into the table, so they read the same entry, whatever the index is.
-/
import proofs.«156834_j37752762532668_2_alg».proof.Proof.KernelResult
import proofs.«156834_j37752762532668_2_alg».proof.Proof.RefValue
import proofs.«156834_j37752762532668_2_alg».proof.Proof.LibGatherVec

set_option maxRecDepth 16384

noncomputable section

namespace Cert.Bridge

open Cert.ReferenceIdeal Cert.ReferenceIdeal.Gen Cert.ReferenceIdeal.Read
open Idealize.ShloMosaic Idealize.ShloMosaic.TcCoe Idealize.SL.Sem Idealize.ShloMosaic.ValueIdx
open Cert.EdgeSpec

local notation "idxK" => Cert.KernelIdeal.EdgeHost.idxH
local notation "rowK" => Cert.KernelIdeal.EdgeResult.rowOf

/-! ## The reference's gathers -/

/-- A gather of one per-atom vector reads the vector at the edge's row: the row the packed table's gather reads. -/
theorem gather_vec (v : FVec Ideal S200000 .f32) (a : IVec S4000000 32) (e : Fin 4000000) :
    Host.gather gather_S200000_S4000000x1_S4000000_n_0_n_n_0_1_1 v (idxK a) (ix1 e) = v (ix1 (rowK (idxK a) e)) :=
  Cert.LibGatherVec.gather_vec_apply (N := 200000) (R := 4000000) gather_S200000_S4000000x1_S4000000_n_0_n_n_0_1_1_wf
    v (idxK a) e (rowK (idxK a) e) rfl

variable (x0 x1 : IVec S4000000 32) (x2 : FVec Ideal S4000000x3 .f32) (x3 x4 x5 : FVec Ideal S200000 .f32)

theorem g9 (e : Fin 4000000) : val_main_v9 (F := Ideal) x0 x3 (ix1 e) = x3 (ix1 (rowK (idxK x0) e)) := gather_vec x3 x0 e
theorem g18 (e : Fin 4000000) : val_main_v18 (F := Ideal) x1 x3 (ix1 e) = x3 (ix1 (rowK (idxK x1) e)) := gather_vec x3 x1 e
theorem g98 (e : Fin 4000000) : val_main_v98 (F := Ideal) x0 x4 (ix1 e) = x4 (ix1 (rowK (idxK x0) e)) := gather_vec x4 x0 e
theorem g105 (e : Fin 4000000) : val_main_v105 (F := Ideal) x1 x4 (ix1 e) = x4 (ix1 (rowK (idxK x1) e)) := gather_vec x4 x1 e
theorem g114 (e : Fin 4000000) : val_main_v114 (F := Ideal) x0 x5 (ix1 e) = x5 (ix1 (rowK (idxK x0) e)) := gather_vec x5 x0 e
theorem g121 (e : Fin 4000000) : val_main_v121 (F := Ideal) x1 x5 (ix1 e) = x5 (ix1 (rowK (idxK x1) e)) := gather_vec x5 x1 e

/-! ## The four results -/

variable (m : (ℓ : Loc Cert.KernelIdeal.nD Cert.KernelIdeal.τ Cert.KernelIdeal.sig) → Buf (Elt Ideal) ℓ)

open Cert.KernelIdeal.EdgeHost (A0 A1 A2 A3 A4 A5)

/-- The Coulomb energies. -/
theorem eq78 (c : Dev Cert.KernelIdeal.nD) :
    val_main_v78 (F := Ideal) (A0 m c) (A1 m c) (A2 m c) (A3 m c)
      = Pipeline.afterTail₀ Cert.KernelIdeal.cfgs (Cert.KernelIdeal.Edge.dats m) 0 (Cert.KernelIdeal.Edge.V0 m) [Cert.KernelIdeal.Gen.hostOps1] c Cert.KernelIdeal.main_v44 := by
  funext i
  obtain ⟨e, rfl⟩ : ∃ e : Fin 4000000, i = ix1 e := ⟨i 0, eq_ix1 i⟩
  refine (Cert.ReferenceIdeal.RefValue.v78_eq _ _ _ _ (ix1 e)).trans ?_
  rw [g9, g18]
  exact (Cert.KernelIdeal.EdgeResult.res44 m c e).symm

/-- The dispersion energies. -/
theorem eq167 (c : Dev Cert.KernelIdeal.nD) :
    val_main_v167 (F := Ideal) (A0 m c) (A1 m c) (A2 m c) (A4 m c) (A5 m c)
      = Pipeline.afterTail₀ Cert.KernelIdeal.cfgs (Cert.KernelIdeal.Edge.dats m) 0 (Cert.KernelIdeal.Edge.V0 m) [Cert.KernelIdeal.Gen.hostOps1] c Cert.KernelIdeal.main_v45 := by
  funext i
  obtain ⟨e, rfl⟩ : ∃ e : Fin 4000000, i = ix1 e := ⟨i 0, eq_ix1 i⟩
  refine (Cert.ReferenceIdeal.RefValue.v167_eq _ _ _ _ _ (ix1 e)).trans ?_
  dsimp only [Cert.ReferenceIdeal.RefValue.c6, Cert.ReferenceIdeal.RefValue.r0]
  rw [g98, g105, g114, g121]
  exact (Cert.KernelIdeal.EdgeResult.res45 m c e).symm

/-- The Coulomb forces. -/
theorem eq91 (c : Dev Cert.KernelIdeal.nD) :
    val_main_v91 (F := Ideal) (A0 m c) (A1 m c) (A2 m c) (A3 m c)
      = Pipeline.afterTail₀ Cert.KernelIdeal.cfgs (Cert.KernelIdeal.Edge.dats m) 0 (Cert.KernelIdeal.Edge.V0 m) [Cert.KernelIdeal.Gen.hostOps1] c Cert.KernelIdeal.main_v50 := by
  funext j
  obtain ⟨e, k, rfl⟩ : ∃ (e : Fin 4000000) (k : Fin 3), j = ix2 e k := ⟨j 0, j 1, eq_ix2 j⟩
  refine (Cert.ReferenceIdeal.RefValue.v91_eq _ _ _ _ (ix2 e k)).trans ?_
  rw [Cert.ReferenceIdeal.RefValue.v88_eq, g9, g18]
  exact (Cert.KernelIdeal.EdgeResult.res50 m c e k).symm

/-- The dispersion forces. -/
theorem eq164 (c : Dev Cert.KernelIdeal.nD) :
    val_main_v164 (F := Ideal) (A0 m c) (A1 m c) (A2 m c) (A4 m c) (A5 m c)
      = Pipeline.afterTail₀ Cert.KernelIdeal.cfgs (Cert.KernelIdeal.Edge.dats m) 0 (Cert.KernelIdeal.Edge.V0 m) [Cert.KernelIdeal.Gen.hostOps1] c Cert.KernelIdeal.main_v53 := by
  funext j
  obtain ⟨e, k, rfl⟩ : ∃ (e : Fin 4000000) (k : Fin 3), j = ix2 e k := ⟨j 0, j 1, eq_ix2 j⟩
  refine (Cert.ReferenceIdeal.RefValue.v164_eq _ _ _ _ _ (ix2 e k)).trans ?_
  rw [Cert.ReferenceIdeal.RefValue.v161_eq]
  dsimp only [Cert.ReferenceIdeal.RefValue.c6, Cert.ReferenceIdeal.RefValue.r0]
  rw [g98, g105, g114, g121]
  exact (Cert.KernelIdeal.EdgeResult.res53 m c e k).symm

end Cert.Bridge

end
-- ==== Proof.lean ====
/-
  The certificate of the fused Coulomb and dispersion edge kernel against its plain reference.

  The kernel program computes, on the host, the edge lengths and — through one packed table and two row gathers — the
  charge product, dispersion coefficient and radius of every edge; pads the four vectors to a whole number of blocks; runs
  an elementwise kernel over 31 blocks that evaluates four formulas per edge; cuts the results back; and multiplies the two
  force scales into the displacements. The reference evaluates the same four formulas on whole vectors, gathering each
  per-atom vector by itself. At the ideal instance the two agree entry by entry: the formulas are the same operations in
  the same order up to the grouping of one product and two ways of writing a negation and the logistic function, the
  padding is cut off again, and both gathers read the same table entries whatever the indices are. No finiteness of the
  inputs is used.

  The three frames: the two kernel programs run to their end and leave their arguments alone (their frames, by the launch
  theorem for host operations around one region, over the body's triple); the reference is a line of host operations.
  The idealization rewrote nothing, so it preserves the kernel as it is.
-/
import proofs.«156834_j37752762532668_2_alg».proof.Defs
import proofs.«156834_j37752762532668_2_alg».proof.Proof.Gen.Kernel
import proofs.«156834_j37752762532668_2_alg».proof.Proof.Gen.Kernel.Skeleton
import proofs.«156834_j37752762532668_2_alg».proof.Proof.Gen.Kernel.Launch
import proofs.«156834_j37752762532668_2_alg».proof.Proof.Gen.Kernel.Points
import proofs.«156834_j37752762532668_2_alg».proof.Proof.Gen.KernelIdeal
import proofs.«156834_j37752762532668_2_alg».proof.Proof.Gen.KernelIdeal.Skeleton
import proofs.«156834_j37752762532668_2_alg».proof.Proof.Gen.KernelIdeal.Launch
import proofs.«156834_j37752762532668_2_alg».proof.Proof.Gen.KernelIdeal.Points
import proofs.«156834_j37752762532668_2_alg».proof.Proof.Gen.ReferenceIdeal
import proofs.«156834_j37752762532668_2_alg».proof.Proof.Gen.Pre_finite_inputs
import proofs.«156834_j37752762532668_2_alg».proof.Proof.FrameBits
import proofs.«156834_j37752762532668_2_alg».proof.Proof.FrameIdeal
import proofs.«156834_j37752762532668_2_alg».proof.Proof.Bridge
import Idealize.ShloMosaic.Adequacy
import Idealize.ShloMosaic.Init

noncomputable section

namespace Cert.Proof

open Idealize.ShloMosaic Idealize.SL.Sem

/-- The word-level kernel program runs to its end and leaves its arguments as launched. -/
theorem frame_kernel : Cert.frame_Kernel := fun m ρ _ => Cert.Kernel.Edge.frame m ρ

/-- So does its idealization. -/
theorem frame_kernelIdeal : Cert.frame_KernelIdeal := fun m ρ _ => Cert.KernelIdeal.Edge.frame m ρ

/-- The reference is a line of host operations: its run with the results dropped. -/
theorem frame_reference : Cert.frame_ReferenceIdeal := fun m ρ _ =>
  (θ_run Cert.ReferenceIdeal.defs _ _).mono (fun _ h c => (h c).2.2.2.2) (Cert.ReferenceIdeal.Value.run (F := Ideal) m ρ)

/-- The idealization rewrote no operation. -/
theorem preserves : Cert.preserves_Kernel_KernelIdeal := trivial

/-- From memories agreeing on the six arguments both programs run, to equal results. -/
theorem algebraic : Cert.algebraic_KernelIdeal_ReferenceIdeal := by
  intro m ρ m' ρ' _ hagree
  refine ⟨_, _, _, _, Cert.KernelIdeal.EdgeResult.kernel_run m ρ, ?_⟩
  refine (θ_run Cert.ReferenceIdeal.defs _ _).mono (fun _ h c => ?_) (Cert.ReferenceIdeal.Value.run (F := Ideal) m' ρ')
  obtain ⟨h78, h91, h167, h164, hargs⟩ := h c
  obtain ⟨e0, e1, e2, e3, e4, e5⟩ := hagree c
  refine ⟨h78.trans ?_, h91.trans ?_, h167.trans ?_, h164.trans ?_, hargs⟩
  · rw [Cert.ReferenceIdeal.Read.val_main_v78_eq, e0, e1, e2, e3]; exact Cert.Bridge.eq78 m c
  · rw [Cert.ReferenceIdeal.Read.val_main_v91_eq, e0, e1, e2, e3]; exact Cert.Bridge.eq91 m c
  · rw [Cert.ReferenceIdeal.Read.val_main_v167_eq, e0, e1, e2, e4, e5]; exact Cert.Bridge.eq167 m c
  · rw [Cert.ReferenceIdeal.Read.val_main_v164_eq, e0, e1, e2, e4, e5]; exact Cert.Bridge.eq164 m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
